-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 107
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S800000x1, .f32⟩
  | .hbm, ⟨96, _⟩ => ⟨S800000x128, .f32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S1x128, .f32⟩
  | .hbm, ⟨105, _⟩ => ⟨S1x64, .f32⟩
  | .hbm, ⟨106, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S50000x64.size a
  hwx6_5 : ∀ i : grid6.Coords, EltTy.bits .f32 = 32 ∨ (Rect.block (s := S50000x64) S2000x64.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v75) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S2000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S50000, .f32⟩
  | 46 => ⟨S50000x1, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x1, .f32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S50000x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x64, .f32⟩
  | 2 => ⟨S1x64, .f32⟩
  | 3 => ⟨S50000x64, .f32⟩
  | 4 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_cst : Ref sig .tc := ⟨.hbm, 96, rfl⟩
abbrev main_call1_v0 : Ref sig .tc := ⟨.hbm, 97, rfl⟩
abbrev main_v69 : Ref sig .tc := ⟨.hbm, 98, rfl⟩
abbrev main_v70 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_call2_cst : Ref sig .tc := ⟨.hbm, 122, rfl⟩
abbrev main_call2_v0 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result kept.

  The program is twelve segments: stretches of host operations and seven tiled regions, alternating. The contents of
  every buffer at each segment boundary form a chain of valuations from the launch memory to the last one; every
  weakly fair execution ends, without a fault, with every unscoped buffer at that last valuation. Reading it at the
  result buffer (beside the twelve argument buffers, which no segment writes) gives the run below: the result array
  is the last valuation at the result's buffer, and the arguments end as launched.
-/
import proofs.«147116_j32804960207401_1_alg».proof.Defs
import proofs.«147116_j32804960207401_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the result buffer ends at the
    last boundary valuation read at it, and every argument array ends as launched. -/
theorem run_final : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.ValueRun

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibReshapeBroadcast.lean ====
/-
  Two spellings of the same re-layout.

  A vector of a entries made a column [a, 1] holds entry p at (p, 0), whether it is written as a reshape or as a
  broadcast along axis 0; a vector of b entries made a row [1, b] holds entry e at (0, e), whether written as a reshape
  or as a broadcast along axis 1. The two programs differ in exactly these spellings for the column of self-loop
  weights and for the bias rows. Both statements are for any extent and any element type.
-/
import Idealize.ShloMosaic.Lib.ValueIdx
import Idealize.ShloMosaic.Lib.Pipeline.Value
import Idealize.ShloMosaic.Lib.ValueLayout
import proofs.«147116_j32804960207401_1_alg».proof.Proof.LibKeepdims

noncomputable section

namespace Cert.GraphNet

open Idealize.ShloMosaic Idealize.ShloMosaic.ValueIdx

/-- A vector reshaped to a column is the vector broadcast along axis 0 into the column shape. -/
theorem column_reshape_eq_broadcast {a : ℕ} {α : Type} (y : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ y h = broadcastInDim ⟨2, ![a, 1]⟩ ![0] h' y := by
  funext j
  obtain ⟨p, u, rfl⟩ : ∃ (p : Fin a) (u : Fin 1), j = ix2 p u := ⟨j 0, j 1, eq_ix2 j⟩
  rw [Cert.LibKeepdims.shapeCast_a_a1_apply y h p u]
  refine (broadcastInDim_apply ![0] h' y (ix2 p u) (ix1 p) fun d => ?_).symm
  match d with
  | ⟨0, _⟩ =>
    show p.val = if a = 1 then 0 else p.val
    split
    · have := p.isLt; omega
    · rfl

/-- A vector reshaped to a row is the vector broadcast along axis 1 into the row shape. -/
theorem row_reshape_eq_broadcast {b : ℕ} {α : Type} (y : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ y h = broadcastInDim ⟨2, ![1, b]⟩ ![1] h' y := by
  funext j
  obtain ⟨u, e, rfl⟩ : ∃ (u : Fin 1) (e : Fin b), j = ix2 u e := ⟨j 0, j 1, eq_ix2 j⟩
  have hu : u.val = 0 := by omega
  rw [shapeCast_apply y h (ix2 u e) (ix1 e) (by
    rw [Shape.rowMajor_val_one, Shape.rowMajor_val_two]
    show e.val = u.val * b + e.val
    rw [hu, Nat.zero_mul, Nat.zero_add])]
  refine (broadcastInDim_apply ![1] h' y (ix2 u e) (ix1 e) fun d => ?_).symm
  match d with
  | ⟨0, _⟩ =>
    show e.val = if b = 1 then 0 else e.val
    split
    · have := e.isLt; omega
    · rfl

end Cert.GraphNet

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«147116_j32804960207401_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibDenseLayer.lean ====
/-
  The layers of a graph network, read one entry at a time, at the ideal values.

  A layer takes the node features H (one row per node) and the aggregated neighbour features A (one row per node) and
  returns, at node p and output channel e,

      act ( Σ_k H(p, k) · Ws(k, e)  +  Σ_k A(p, k) · Wn(k, e)  +  b(e) ),

  `pre` being the argument of the activation. The first layer has no neighbour term: `lin`. Both programs compute
  exactly this, entry by entry: a kernel's body on a tile of rows (two matrix products into zero accumulators of the
  tile's rows after a change of float format, which changes nothing here, and the bias row spread over the tile's rows)
  and the host's operations on all rows at once (two `dot_general`s and the bias broadcast in two steps). The
  rectifier is a maximum with zero in both spellings. The logistic function is by definition 1 / (1 + exp (-x)) on the
  extended reals, which is the expression the host spells out. Last, the mean over the neighbours: the sum S(p, ·)
  times the reciprocal 1 / max(d(p), 1) is the quotient S(p, ·) / max(d(p), 1), because max(d(p), 1) ≥ 1 is not zero
  (at a zero divisor the two differ; nowhere else, the infinities included).
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import proofs.«147116_j32804960207401_1_alg».proof.Proof.LibPlainMatmul
import proofs.«147116_j32804960207401_1_alg».proof.Proof.LibPlainDot
import proofs.«147116_j32804960207401_1_alg».proof.Proof.LibRowBroadcast

noncomputable section

namespace Cert.Gcn

open Idealize.ShloMosaic Idealize.ShloMosaic.ValueIdx

/-- The argument of a layer's activation at node `p`, channel `e`: the node's own row through the self weights, its
    aggregated neighbours' row through the neighbour weights, and the bias. -/
def pre {A K B : ℕ} (h a : (⟨2, ![A, K]⟩ : Shape).Idx → EReal) (ws wn : (⟨2, ![K, B]⟩ : Shape).Idx → EReal)
    (b : Fin B → EReal) (p : Fin A) (e : Fin B) : EReal :=
  (∑ k : Fin K, h (ix2 p k) * ws (ix2 k e) + ∑ k : Fin K, a (ix2 p k) * wn (ix2 k e)) + b e

/-- The first, purely linear layer at node `p`, channel `e`. -/
def lin {A K B : ℕ} (x : (⟨2, ![A, K]⟩ : Shape).Idx → EReal) (w : (⟨2, ![K, B]⟩ : Shape).Idx → EReal)
    (b : Fin B → EReal) (p : Fin A) (e : Fin B) : EReal :=
  (∑ k : Fin K, x (ix2 p k) * w (ix2 k e)) + b e

/-! ## A kernel's body on a tile of rows -/

/-- The linear kernel's body: one product of the tile with the weights, plus the bias row on every row. -/
theorem kernel_lin_apply {T K B : ℕ} (D : DotDims ⟨2, ![T, K]⟩ ⟨2, ![K, B]⟩ ⟨2, ![T, B]⟩) (hD : D = DotDims.plain T K B)
    (x : FVec Ideal ⟨2, ![T, K]⟩ .f32) (w : FVec Ideal ⟨2, ![K, B]⟩ .f32) (bv : FVec Ideal ⟨2, ![1, B]⟩ .f32)
    (hbv : (⟨2, ![1, B]⟩ : Shape).ShapeCasts ⟨2, ![1, B]⟩) (hbc : (⟨2, ![1, B]⟩ : Shape).Broadcasts ⟨2, ![T, B]⟩)
    (hlt : FTy.bf16.bits < FTy.f32.bits) (p : Fin T) (e : Fin B) :
    addf (matmul D none (truncf .bf16 x hlt) (truncf .bf16 w hlt) (constant ⟨2, ![T, B]⟩ .f32 0x00000000#32))
        (broadcastTo ⟨2, ![T, B]⟩ (shapeCast ⟨2, ![1, B]⟩ bv hbv) hbc) (ix2 p e)
      = lin x w (fun e => bv (ix2 0 e)) p e := by
  subst hD
  have hm : matmul (DotDims.plain T K B) none (truncf .bf16 x hlt) (truncf .bf16 w hlt) (constant ⟨2, ![T, B]⟩ .f32 0x00000000#32) (ix2 p e)
      = ∑ k : Fin K, x (ix2 p k) * w (ix2 k e) := matmul_plain_zero_apply T K B none (truncf .bf16 x hlt) (truncf .bf16 w hlt) p e
  rw [addf_apply, shapeCast_self, LibRowBroadcast.broadcastTo_1b_ab_apply bv hbc p e 0, hm]
  rfl

/-- A dense kernel's body before its activation: the tile of own features and the tile of aggregated features, each
    through its weights, summed, plus the bias row on every row. -/
theorem kernel_pre_apply {T K B : ℕ} (D : DotDims ⟨2, ![T, K]⟩ ⟨2, ![K, B]⟩ ⟨2, ![T, B]⟩) (hD : D = DotDims.plain T K B)
    (x a : FVec Ideal ⟨2, ![T, K]⟩ .f32) (ws wn : FVec Ideal ⟨2, ![K, B]⟩ .f32) (bv : FVec Ideal ⟨2, ![1, B]⟩ .f32)
    (hx : (⟨2, ![T, K]⟩ : Shape).ShapeCasts ⟨2, ![T, K]⟩) (hbv : (⟨2, ![1, B]⟩ : Shape).ShapeCasts ⟨2, ![1, B]⟩)
    (hbc : (⟨2, ![1, B]⟩ : Shape).Broadcasts ⟨2, ![T, B]⟩) (hlt : FTy.bf16.bits < FTy.f32.bits) (p : Fin T) (e : Fin B) :
    addf (addf (matmul D none (truncf .bf16 (shapeCast ⟨2, ![T, K]⟩ x hx) hlt) (truncf .bf16 ws hlt) (constant ⟨2, ![T, B]⟩ .f32 0x00000000#32))
          (matmul D none (truncf .bf16 (shapeCast ⟨2, ![T, K]⟩ a hx) hlt) (truncf .bf16 wn hlt) (constant ⟨2, ![T, B]⟩ .f32 0x00000000#32)))
        (broadcastTo ⟨2, ![T, B]⟩ (shapeCast ⟨2, ![1, B]⟩ bv hbv) hbc) (ix2 p e)
      = pre x a ws wn (fun e => bv (ix2 0 e)) p e := by
  subst hD
  have hs : matmul (DotDims.plain T K B) none (truncf .bf16 x hlt) (truncf .bf16 ws hlt) (constant ⟨2, ![T, B]⟩ .f32 0x00000000#32) (ix2 p e)
      = ∑ k : Fin K, x (ix2 p k) * ws (ix2 k e) := matmul_plain_zero_apply T K B none (truncf .bf16 x hlt) (truncf .bf16 ws hlt) p e
  have hn : matmul (DotDims.plain T K B) none (truncf .bf16 a hlt) (truncf .bf16 wn hlt) (constant ⟨2, ![T, B]⟩ .f32 0x00000000#32) (ix2 p e)
      = ∑ k : Fin K, a (ix2 p k) * wn (ix2 k e) := matmul_plain_zero_apply T K B none (truncf .bf16 a hlt) (truncf .bf16 wn hlt) p e
  rw [addf_apply, addf_apply, shapeCast_self x, shapeCast_self a, shapeCast_self bv,
    LibRowBroadcast.broadcastTo_1b_ab_apply bv hbc p e 0, hs, hn]
  rfl

/-- A kernel's maximum with the splat of the f32 zero is the rectifier. -/
theorem kernel_relu_apply {s : Shape} (v : FVec Ideal s .f32) (i : s.Idx) :
    maximumf v (broadcast s (Scalar.ofBits .f32 0x00000000#32)) i = max (v i) 0 := by
  rw [maximumf_apply, broadcast_apply]
  exact congrArg (max (v i)) Ideal.ofBits_zero_f32

/-- A kernel's logistic is the logistic function of the entry. -/
theorem kernel_logistic_apply {s : Shape} (v : FVec Ideal s .f32) (i : s.Idx) : logistic v i = Ideal.logistic (v i) := rfl

/-! ## The host's operations on all rows -/

/-- A bias vector broadcast to one row and then down all rows reads, at (p, e), the vector's entry e. -/
theorem host_bias_apply {A B : ℕ} {α : Type} (b : (⟨1, ![B]⟩ : Shape).Idx → α)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    broadcastInDim ⟨2, ![A, B]⟩ ![0, 1] h2 (broadcastInDim ⟨2, ![1, B]⟩ ![1] h1 b) (ix2 p e) = b (ix1 e) := by
  rw [broadcastInDim_oneRow_apply h2 _ p e]
  refine broadcastInDim_apply ![1] h1 b (ix2 (0 : Fin 1) e) (ix1 e) fun a => ?_
  match a with
  | ⟨0, _⟩ =>
    show e.val = if B = 1 then 0 else e.val
    split
    · have := e.isLt; omega
    · rfl

/-- The host's linear layer. -/
theorem host_lin_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (Host.dotGeneral D none x w) (broadcastInDim ⟨2, ![A, B]⟩ ![0, 1] h2 (broadcastInDim ⟨2, ![1, B]⟩ ![1] h1 b)) (ix2 p e)
      = lin x w (fun e => b (ix1 e)) p e := by
  subst hD
  rw [addf_apply, host_bias_apply]
  simp only [Host.dotGeneral]
  rw [LibPlainDot.dotGeneral_plain_apply]
  rfl

/-- The host's dense layer before its activation. -/
theorem host_pre_apply {A K B : ℕ} (D : DotDims ⟨2, ![A, K]⟩ ⟨2, ![K, B]⟩ ⟨2, ![A, B]⟩) (hD : D = DotDims.plain A K B)
    (h a : FVec Ideal ⟨2, ![A, K]⟩ .f32) (ws wn : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (addf (Host.dotGeneral D none h ws) (Host.dotGeneral D none a wn))
        (broadcastInDim ⟨2, ![A, B]⟩ ![0, 1] h2 (broadcastInDim ⟨2, ![1, B]⟩ ![1] h1 b)) (ix2 p e)
      = pre h a ws wn (fun e => b (ix1 e)) p e := by
  subst hD
  rw [addf_apply, addf_apply, host_bias_apply]
  simp only [Host.dotGeneral]
  rw [LibPlainDot.dotGeneral_plain_apply, LibPlainDot.dotGeneral_plain_apply]
  rfl

/-- The host's maximum with the broadcast f32 zero is the rectifier. -/
theorem host_relu_apply {s : Shape} (v : FVec Ideal s .f32) (hb : (⟨0, ![]⟩ : Shape).BroadcastsInDim s ![]) (i : s.Idx) :
    maximumf v (broadcastInDim s ![] hb (constant (F := Ideal) ⟨0, ![]⟩ .f32 0x00000000#32)) i = max (v i) 0 := by
  rw [maximumf_apply, broadcastInDim_scalar_apply]
  exact congrArg (max (v i)) Ideal.ofBits_zero_f32

/-- The host's spelling of the logistic function, 1 / (1 + exp (-x)) with the f32 one broadcast, is the logistic
    function of the entry: that expression is its definition on the extended reals. -/
theorem host_logistic_apply {s : Shape} (v : FVec Ideal s .f32) (hb : (⟨0, ![]⟩ : Shape).BroadcastsInDim s ![]) (i : s.Idx) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf v))) i
      = Ideal.logistic (v i) := by
  rw [hostDivf_apply, addf_apply, broadcastInDim_scalar_apply]
  show Ideal.div (Ideal.ofBits .f32 0x3F800000#32) (Ideal.ofBits .f32 0x3F800000#32 + Ideal.exp (-(v i))) = Ideal.logistic (v i)
  rw [Ideal.ofBits_one_f32]
  rfl

/-! ## The mean over the neighbours -/

/-- A vector with one entry per node, made a column and spread over the channels, reads the node's entry. -/
theorem column_spread_apply {N C : ℕ} {α : Type} (y : (⟨1, ![N]⟩ : Shape).Idx → α)
    (h1 : (⟨1, ![N]⟩ : Shape).BroadcastsInDim ⟨2, ![N, 1]⟩ ![0]) (h2 : (⟨2, ![N, 1]⟩ : Shape).BroadcastsInDim ⟨2, ![N, C]⟩ ![0, 1])
    (p : Fin N) (e : Fin C) :
    broadcastInDim ⟨2, ![N, C]⟩ ![0, 1] h2 (broadcastInDim ⟨2, ![N, 1]⟩ ![0] h1 y) (ix2 p e) = y (ix1 p) := by
  have e2 := broadcastInDim_apply ![0, 1] h2 (broadcastInDim ⟨2, ![N, 1]⟩ ![0] h1 y) (ix2 p e) (ix2 p (0 : Fin 1)) (fun a => by
    match a with
    | ⟨0, _⟩ =>
      show p.val = if N = 1 then 0 else p.val
      split
      · have := p.isLt; omega
      · rfl
    | ⟨1, _⟩ =>
      show (0 : ℕ) = if (1 : ℕ) = 1 then 0 else e.val
      rw [if_pos rfl])
  have e1 := broadcastInDim_apply ![0] h1 y (ix2 p (0 : Fin 1)) (ix1 p) (fun a => by
    match a with
    | ⟨0, _⟩ =>
      show p.val = if N = 1 then 0 else p.val
      split
      · have := p.isLt; omega
      · rfl)
  exact e2.trans e1

/-- THE LAW THAT JOINS THE TWO PROGRAMS. The neighbour sums times the spread reciprocal of max(degree, 1) are the
    neighbour sums divided by the spread max(degree, 1): the divisor is at least one, so it is not zero, and off a zero
    divisor a product with the reciprocal is the quotient on all the extended reals. -/
theorem sum_times_reciprocal_eq_quotient {N C : ℕ} (S : FVec Ideal ⟨2, ![N, C]⟩ .f32) (d o₁ o₂ : FVec Ideal ⟨1, ![N]⟩ .f32)
    (ho₁ : ∀ i, o₁ i = 1) (ho₂ : ∀ i, o₂ i = 1)
    (h1 : (⟨1, ![N]⟩ : Shape).BroadcastsInDim ⟨2, ![N, 1]⟩ ![0]) (h2 : (⟨2, ![N, 1]⟩ : Shape).BroadcastsInDim ⟨2, ![N, C]⟩ ![0, 1]) :
    mulf S (broadcastInDim ⟨2, ![N, C]⟩ ![0, 1] h2 (broadcastInDim ⟨2, ![N, 1]⟩ ![0] h1 (Host.divf o₂ (maximumf d o₁))))
      = Host.divf S (broadcastInDim ⟨2, ![N, C]⟩ ![0, 1] h2 (broadcastInDim ⟨2, ![N, 1]⟩ ![0] h1 (maximumf d o₁))) := by
  funext i
  obtain ⟨p, e, rfl⟩ : ∃ (p : Fin N) (e : Fin C), i = ix2 p e := ⟨i 0, i 1, eq_ix2 i⟩
  rw [mulf_apply, hostDivf_apply, column_spread_apply, column_spread_apply, hostDivf_apply, maximumf_apply, ho₁, ho₂]
  have hpos : (0 : EReal) < max (d (ix1 p)) 1 := lt_of_lt_of_le zero_lt_one (le_max_right _ _)
  exact Ideal.mul_one_div (ne_of_gt hpos)

end Cert.Gcn

end
-- ==== Proof.LibGraphLayers.lean ====
/-
  The three kinds of step this network is made of, read one entry at a time on the extended reals.

  A graph-convolution layer takes the node features H (one row per node), multiplies them by a weight matrix
  (entry (p, e) of H · W is the sum over k of H(p, k) · W(k, e): `prodAt`), gathers and sums the neighbours' rows
  (done by the same operations in both programs, so never opened here), and then combines, at node p and channel e,

      max ( (agg(p, e) + hlin(p, e) · s(p)) + b(e), 0 )                                   (`convAt`)

  where s(p) is the node's self-loop weight and b the bias. The head is two dense layers with no activation
  between them: entry (p, e) is  Σ_k ( (H · W1)(p, k) + b1(k) ) · W2(k, e) + b2(e)   (`headAt`).

  Each of the three is computed twice: by a kernel body on a tile of rows (matrix products into zero accumulators
  after a change of float format, which changes nothing on the extended reals; the per-node column and the bias
  row spread over the tile) and by the host on all rows at once. Both spellings give the same entry, and the
  entry depends only on row p of the row-indexed operands: that is why a tile of rows of the result is the same
  function of the matching tile of rows of the operands. Every statement here is for any extents.
-/
import Idealize.ShloMosaic.PureOps.Ideal.Laws
import Idealize.ShloMosaic.Lib.ValueIdx
import Idealize.ShloMosaic.Lib.Pipeline.Value
import Idealize.ShloMosaic.Lib.ValueLayout
import proofs.«147116_j32804960207401_1_alg».proof.Proof.LibPlainMatmul
import proofs.«147116_j32804960207401_1_alg».proof.Proof.LibPlainDot
import proofs.«147116_j32804960207401_1_alg».proof.Proof.LibRowBroadcast
import proofs.«147116_j32804960207401_1_alg».proof.Proof.LibKeepdims
import proofs.«147116_j32804960207401_1_alg».proof.Proof.LibDenseLayer

noncomputable section

namespace Cert.GraphNet

open Idealize.ShloMosaic Idealize.ShloMosaic.ValueIdx

/-- Entry (p, e) of the matrix product X · W. -/
def prodAt {A K B : ℕ} (x : (⟨2, ![A, K]⟩ : Shape).Idx → EReal) (w : (⟨2, ![K, B]⟩ : Shape).Idx → EReal)
    (p : Fin A) (e : Fin B) : EReal :=
  ∑ k : Fin K, x (ix2 p k) * w (ix2 k e)

/-- One entry of a graph-convolution layer after its rectifier: the aggregated neighbours' entry, plus the node's
    own entry times its self-loop weight, plus the bias, cut off below at zero. -/
def convAt (agg hlin s b : EReal) : EReal := max ((agg + hlin * s) + b) 0

/-- Entry (p, e) of the two-layer head: (H · W1 + b1) · W2 + b2. -/
def headAt {A K M B : ℕ} (h : (⟨2, ![A, K]⟩ : Shape).Idx → EReal) (w1 : (⟨2, ![K, M]⟩ : Shape).Idx → EReal) (b1 : Fin M → EReal)
    (w2 : (⟨2, ![M, B]⟩ : Shape).Idx → EReal) (b2 : Fin B → EReal) (p : Fin A) (e : Fin B) : EReal :=
  (∑ k : Fin M, (prodAt h w1 p k + b1 k) * w2 (ix2 k e)) + b2 e

/-! ## A kernel body on a tile of T rows -/

/-- The product of a tile of rows with the weights, into a zero accumulator. -/
theorem tile_prod {T K B : ℕ} (D : DotDims ⟨2, ![T, K]⟩ ⟨2, ![K, B]⟩ ⟨2, ![T, B]⟩) (hD : D = DotDims.plain T K B)
    (x : FVec Ideal ⟨2, ![T, K]⟩ .f32) (w : FVec Ideal ⟨2, ![K, B]⟩ .f32) (hlt : FTy.bf16.bits < FTy.f32.bits)
    (p : Fin T) (e : Fin B) :
    matmul D none (truncf .bf16 x hlt) (truncf .bf16 w hlt) (constant ⟨2, ![T, B]⟩ .f32 0x00000000#32) (ix2 p e)
      = prodAt x w p e := by
  subst hD
  exact matmul_plain_zero_apply T K B none (truncf .bf16 x hlt) (truncf .bf16 w hlt) p e

/-- The combining body: on a tile, entry (p, e) reads row p of the two feature tiles, entry p of the column of
    self-loop weights and entry e of the bias row. -/
theorem tile_conv {T B : ℕ} (h a : FVec Ideal ⟨2, ![T, B]⟩ .f32) (s : FVec Ideal ⟨2, ![T, 1]⟩ .f32) (b : FVec Ideal ⟨2, ![1, B]⟩ .f32)
    (hh : (⟨2, ![T, B]⟩ : Shape).ShapeCasts ⟨2, ![T, B]⟩) (hs : (⟨2, ![T, 1]⟩ : Shape).ShapeCasts ⟨2, ![T, 1]⟩)
    (hb : (⟨2, ![1, B]⟩ : Shape).ShapeCasts ⟨2, ![1, B]⟩)
    (hbs : (⟨2, ![T, 1]⟩ : Shape).Broadcasts ⟨2, ![T, B]⟩) (hbb : (⟨2, ![1, B]⟩ : Shape).Broadcasts ⟨2, ![T, B]⟩)
    (p : Fin T) (e : Fin B) :
    maximumf (addf (addf (shapeCast ⟨2, ![T, B]⟩ a hh) (mulf (shapeCast ⟨2, ![T, B]⟩ h hh) (broadcastTo ⟨2, ![T, B]⟩ (shapeCast ⟨2, ![T, 1]⟩ s hs) hbs)))
        (broadcastTo ⟨2, ![T, B]⟩ (shapeCast ⟨2, ![1, B]⟩ b hb) hbb)) (broadcast ⟨2, ![T, B]⟩ (Scalar.ofBits .f32 0x00000000#32)) (ix2 p e)
      = convAt (a (ix2 p e)) (h (ix2 p e)) (s (ix2 p 0)) (b (ix2 0 e)) := by
  rw [Cert.Gcn.kernel_relu_apply, addf_apply, addf_apply, mulf_apply, shapeCast_self a, shapeCast_self h, shapeCast_self s,
    shapeCast_self b, Cert.LibKeepdims.broadcastTo_a1_ab_apply s hbs p e 0, Cert.LibRowBroadcast.broadcastTo_1b_ab_apply b hbb p e 0]
  rfl

/-- The head's body: two products on the tile, each followed by its bias row. -/
theorem tile_head {T K M B : ℕ} (D1 : DotDims ⟨2, ![T, K]⟩ ⟨2, ![K, M]⟩ ⟨2, ![T, M]⟩) (hD1 : D1 = DotDims.plain T K M)
    (D2 : DotDims ⟨2, ![T, M]⟩ ⟨2, ![M, B]⟩ ⟨2, ![T, B]⟩) (hD2 : D2 = DotDims.plain T M B)
    (h : FVec Ideal ⟨2, ![T, K]⟩ .f32) (w1 : FVec Ideal ⟨2, ![K, M]⟩ .f32) (b1 : FVec Ideal ⟨2, ![1, M]⟩ .f32)
    (w2 : FVec Ideal ⟨2, ![M, B]⟩ .f32) (b2 : FVec Ideal ⟨2, ![1, B]⟩ .f32)
    (hh : (⟨2, ![T, K]⟩ : Shape).ShapeCasts ⟨2, ![T, K]⟩) (hb1 : (⟨2, ![1, M]⟩ : Shape).ShapeCasts ⟨2, ![1, M]⟩)
    (hb2 : (⟨2, ![1, B]⟩ : Shape).ShapeCasts ⟨2, ![1, B]⟩)
    (hbb1 : (⟨2, ![1, M]⟩ : Shape).Broadcasts ⟨2, ![T, M]⟩) (hbb2 : (⟨2, ![1, B]⟩ : Shape).Broadcasts ⟨2, ![T, B]⟩)
    (hlt : FTy.bf16.bits < FTy.f32.bits) (p : Fin T) (e : Fin B) :
    addf (matmul D2 none (truncf .bf16 (addf (matmul D1 none (truncf .bf16 (shapeCast ⟨2, ![T, K]⟩ h hh) hlt) (truncf .bf16 w1 hlt)
              (constant ⟨2, ![T, M]⟩ .f32 0x00000000#32)) (broadcastTo ⟨2, ![T, M]⟩ (shapeCast ⟨2, ![1, M]⟩ b1 hb1) hbb1)) hlt)
            (truncf .bf16 w2 hlt) (constant ⟨2, ![T, B]⟩ .f32 0x00000000#32))
        (broadcastTo ⟨2, ![T, B]⟩ (shapeCast ⟨2, ![1, B]⟩ b2 hb2) hbb2) (ix2 p e)
      = headAt h w1 (fun k => b1 (ix2 0 k)) w2 (fun e => b2 (ix2 0 e)) p e := by
  rw [shapeCast_self h, Cert.Gcn.kernel_lin_apply D2 hD2 _ w2 b2 hb2 hbb2 hlt p e]
  unfold headAt Cert.Gcn.lin
  refine congrArg (· + b2 (ix2 0 e)) (Finset.sum_congr rfl fun k _ => ?_)
  rw [Cert.Gcn.kernel_lin_apply D1 hD1 h w1 b1 hb1 hbb1 hlt p k]
  rfl

/-! ## The host's operations on all A rows -/

/-- The host's matrix product. -/
theorem host_prod {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (r : Fin A) (e : Fin B) :
    Host.dotGeneral D none x w (ix2 r e) = prodAt x w r e := by
  subst hD
  simp only [Host.dotGeneral]
  rw [Cert.LibPlainDot.dotGeneral_plain_apply]
  rfl

/-- A column [A, 1] spread over B channels reads the column's entry of the row. -/
theorem column_over_channels {A B : ℕ} {α : Type} (s : (⟨2, ![A, 1]⟩ : Shape).Idx → α)
    (hs : (⟨2, ![A, 1]⟩ : Shape).BroadcastsInDim ⟨2, ![A, B]⟩ ![0, 1]) (r : Fin A) (e : Fin B) :
    broadcastInDim ⟨2, ![A, B]⟩ ![0, 1] hs s (ix2 r e) = s (ix2 r 0) :=
  broadcastInDim_apply ![0, 1] hs s (ix2 r e) (ix2 r (0 : Fin 1)) (fun a => by
    match a with
    | ⟨0, _⟩ =>
      show r.val = if A = 1 then 0 else r.val
      split
      · have := r.isLt; omega
      · rfl
    | ⟨1, _⟩ =>
      show (0 : ℕ) = if (1 : ℕ) = 1 then 0 else e.val
      rw [if_pos rfl])

/-- The host's combining step with its rectifier. -/
theorem host_conv {A B : ℕ} (hlin agg : FVec Ideal ⟨2, ![A, B]⟩ .f32) (s : FVec Ideal ⟨2, ![A, 1]⟩ .f32) (b : FVec Ideal ⟨2, ![1, B]⟩ .f32)
    (h0 : (⟨0, ![]⟩ : Shape).BroadcastsInDim ⟨2, ![A, B]⟩ ![]) (hs : (⟨2, ![A, 1]⟩ : Shape).BroadcastsInDim ⟨2, ![A, B]⟩ ![0, 1])
    (hb : (⟨2, ![1, B]⟩ : Shape).BroadcastsInDim ⟨2, ![A, B]⟩ ![0, 1]) (r : Fin A) (e : Fin B) :
    maximumf (addf (addf agg (mulf hlin (broadcastInDim ⟨2, ![A, B]⟩ ![0, 1] hs s))) (broadcastInDim ⟨2, ![A, B]⟩ ![0, 1] hb b))
        (broadcastInDim ⟨2, ![A, B]⟩ ![] h0 (constant (F := Ideal) ⟨0, ![]⟩ .f32 0x00000000#32)) (ix2 r e)
      = convAt (agg (ix2 r e)) (hlin (ix2 r e)) (s (ix2 r 0)) (b (ix2 0 e)) := by
  rw [Cert.Gcn.host_relu_apply, addf_apply, addf_apply, mulf_apply, broadcastInDim_oneRow_apply hb b r e,
    column_over_channels s hs r e]
  rfl

/-- The host's two-layer head. -/
theorem host_head {A K M B : ℕ} (D1 : DotDims ⟨2, ![A, K]⟩ ⟨2, ![K, M]⟩ ⟨2, ![A, M]⟩) (hD1 : D1 = DotDims.plain A K M)
    (D2 : DotDims ⟨2, ![A, M]⟩ ⟨2, ![M, B]⟩ ⟨2, ![A, B]⟩) (hD2 : D2 = DotDims.plain A M B)
    (h : FVec Ideal ⟨2, ![A, K]⟩ .f32) (w1 : FVec Ideal ⟨2, ![K, M]⟩ .f32) (b1 : FVec Ideal ⟨2, ![1, M]⟩ .f32)
    (w2 : FVec Ideal ⟨2, ![M, B]⟩ .f32) (b2 : FVec Ideal ⟨2, ![1, B]⟩ .f32)
    (hb1 : (⟨2, ![1, M]⟩ : Shape).BroadcastsInDim ⟨2, ![A, M]⟩ ![0, 1]) (hb2 : (⟨2, ![1, B]⟩ : Shape).BroadcastsInDim ⟨2, ![A, B]⟩ ![0, 1])
    (r : Fin A) (e : Fin B) :
    addf (Host.dotGeneral D2 none (addf (Host.dotGeneral D1 none h w1) (broadcastInDim ⟨2, ![A, M]⟩ ![0, 1] hb1 b1)) w2)
        (broadcastInDim ⟨2, ![A, B]⟩ ![0, 1] hb2 b2) (ix2 r e)
      = headAt h w1 (fun k => b1 (ix2 0 k)) w2 (fun e => b2 (ix2 0 e)) r e := by
  rw [addf_apply, broadcastInDim_oneRow_apply hb2 b2 r e, host_prod D2 hD2]
  show (∑ k : Fin M, (addf (Host.dotGeneral D1 none h w1) (broadcastInDim ⟨2, ![A, M]⟩ ![0, 1] hb1 b1)) (ix2 r k) * w2 (ix2 k e)) + b2 (ix2 0 e)
    = (∑ k : Fin M, (prodAt h w1 r k + b1 (ix2 0 k)) * w2 (ix2 k e)) + b2 (ix2 0 e)
  refine congrArg (· + b2 (ix2 0 e)) (Finset.sum_congr rfl fun k _ => ?_)
  rw [addf_apply, broadcastInDim_oneRow_apply hb1 b1 r k, host_prod D1 hD1]

end Cert.GraphNet

end
-- ==== Proof.Region0.lean ====
/-
  Region 0: the node features times a weight matrix, 2000 rows per grid point.

  Grid point t stages rows 2000·t … 2000·t + 1999 of the features and the whole weight matrix, multiplies them into a
  zero accumulator, and writes the 2000 × 128 tile back at the same rows. Entry (p, e) of a tile's product reads only
  row p of the tile, which is row 2000·t + p of the features; so each tile written back is the matching tile of the
  product of ALL rows with the weights, the 25 tiles cover the 50000 rows, and the array ends holding that product.
-/
import proofs.«147116_j32804960207401_1_alg».proof.Proof.Gen.KernelIdeal.Frame
import proofs.«147116_j32804960207401_1_alg».proof.Proof.LibGraphLayers

set_option maxRecDepth 16384

noncomputable section

namespace Cert.KernelIdeal.Region0

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The product of all 50000 rows with the weights. -/
abbrev product (X : FVec Ideal S50000x128 .f32) (W : FVec Ideal S128x128 .f32) : FVec Ideal S50000x128 .f32 :=
  Host.dotGeneral (DotDims.plain 50000 128 128) none X W

/-- The printed index maps over the 25 grid points: the feature and output windows sit at block row t, column 0; the
    weight window always at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := by
  have h := t.isLt
  have hN : cfg0.N = 25 := N_0
  omega

/-- The body's stored value at entry (p, e) of a tile. -/
theorem payload_at (x : Vec Ideal S2000x128 .f32) (w : Vec Ideal S128x128 .f32) (p : Fin 2000) (e : Fin 128) :
    k0_pay1 x w (ix2 p e) = prodAt x w p e := by
  unfold k0_pay1
  exact tile_prod dot_S2000x128_S128x128_S2000x128_1_0_0_1_n_n rfl x w bitsLt_bf16_f32 p e

/-- Row p of the feature tile at point t is row 2000·t + p of the feature array. -/
theorem rows_block (c : Dev nD) (t : Fin cfg0.N) (p : Fin 2000) (q : Fin 128) (r : Fin 50000) (hr : r.val = t.val * 2000 + p.val) :
    iblk0 V c 0 t (ix2 p q) = V c main_arg0 (ix2 r q) := by
  obtain ⟨e0, e1, -, -, -, -⟩ := index_maps t
  show V c main_arg0 (((cfg0.win 0).blk t).view.emb (ix2 p q)) = V c main_arg0 (ix2 r q)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * q.val = q.val; omega

/-- The weight window's block is the whole weight matrix at every point. -/
theorem weights_block (c : Dev nD) (t : Fin cfg0.N) (q : Fin 128) (e : Fin 128) :
    iblk0 V c 1 t (ix2 q e) = V c main_arg2 (ix2 q e) := by
  obtain ⟨-, -, e2, e3, -, -⟩ := index_maps t
  show V c main_arg2 (((cfg0.win 1).blk t).view.emb (ix2 q e)) = V c main_arg2 (ix2 q e)
  refine congrArg _ (funext fun a => Fin.ext ?_)
  match a with
  | ⟨0, _⟩ => show win0_1.index t (0 : Fin 2) * 128 + 1 * q.val = q.val; omega
  | ⟨1, _⟩ => show win0_1.index t (1 : Fin 2) * 128 + 1 * e.val = e.val; omega

/-- Entry (p, e) of the output tile at point t sits at row 2000·t + p, column e of the output array. -/
theorem out_block (t : Fin cfg0.N) (p : Fin 2000) (e : Fin 128) (r : Fin 50000) (hr : r.val = t.val * 2000 + p.val) :
    ((cfg0.win 2).blk t).view.emb (ix2 p e) = ix2 r e := by
  obtain ⟨-, -, -, -, e4, e5⟩ := index_maps t
  refine funext fun a => Fin.ext ?_
  match a with
  | ⟨0, _⟩ => show win0_2.index t (0 : Fin 2) * 2000 + 1 * p.val = r.val; omega
  | ⟨1, _⟩ => show win0_2.index t (1 : Fin 2) * 128 + 1 * e.val = e.val; omega

/-- What point t writes back is tile t of the product of all rows with the weights. -/
theorem flushed (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  refine funext fun (j : S2000x128.Idx) => ?_
  obtain ⟨p, e, rfl⟩ : ∃ (p : Fin 2000) (e : Fin 128), j = ix2 p e := ⟨j 0, j 1, eq_ix2 j⟩
  have ht := point_lt t
  have hp := p.isLt
  let r : Fin 50000 := ⟨t.val * 2000 + p.val, by omega⟩
  show k0_pay1 (iblk0 V c 0 t) (iblk0 V c 1 t) (ix2 p e)
    = product (V c main_arg0) (V c main_arg2) (((cfg0.win 2).blk t).view.emb (ix2 p e))
  rw [payload_at, out_block t p e r rfl]
  refine Eq.trans ?_ (host_prod (DotDims.plain 50000 128 128) rfl (V c main_arg0) (V c main_arg2) r e).symm
  unfold prodAt
  refine Finset.sum_congr rfl fun q _ => ?_
  rw [rows_block V c t p q r rfl, weights_block V c t q e]

/-- Every row of the output array lies in some point's tile: row i in tile i / 2000. -/
theorem covered (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 25 := N_0
  let t : Fin cfg0.N := ⟨(i 0).val / 2000, by omega⟩
  obtain ⟨-, -, -, -, e4, e5⟩ := index_maps t
  have ht : t.val = (i 0).val / 2000 := rfl
  refine ⟨t, flush0_2 t, ?_⟩
  show i ∈ ((View.whole main_v28).slice (win0_2.rect t)).set
  rw [View.set_slice_whole, Rect.mem_set_unit]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array holds the product of the feature array, as the region found it, with the
    weights. -/
theorem final (c : Dev nD) :
    (dat0 V c).arrAt 2 cfg0.N = product (V c main_arg0) (V c main_arg2) :=
  (dat0 V c).arrAt_eq_of_cover 2 (product (V c main_arg0) (V c main_arg2)) (fun t _ => flushed V c t) covered

end Cert.KernelIdeal.Region0

end
-- ==== Proof.Region1.lean ====
/-
  Region 1: a graph-convolution layer's combining step, 2000 rows per grid point.

  Grid point t stages rows 2000·t … 2000·t + 1999 of the transformed features, of the aggregated neighbours and of the
  column of self-loop weights, and the whole bias row; entry (p, e) of what it writes back is
  max((agg(p, e) + hlin(p, e) · s(p)) + b(e), 0) read at row 2000·t + p. That is the matching tile of the same formula
  taken over all rows at once, the 25 tiles cover the 50000 rows, and the array ends holding that.
-/
import proofs.«147116_j32804960207401_1_alg».proof.Proof.Gen.KernelIdeal.Frame
import proofs.«147116_j32804960207401_1_alg».proof.Proof.Gen.ReferenceIdeal
import proofs.«147116_j32804960207401_1_alg».proof.Proof.LibGraphLayers

set_option maxRecDepth 16384

noncomputable section

namespace Cert.KernelIdeal.Region1

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The combining step over all 50000 rows at once: the column of self-loop weights spread over the channels, the
    bias row spread over the rows, the rectifier as a maximum with zero. -/
abbrev combined (hlin agg : FVec Ideal S50000x128 .f32) (s : FVec Ideal S50000x1 .f32) (b : FVec Ideal S1x128 .f32) :
    FVec Ideal S50000x128 .f32 :=
  maximumf (addf (addf agg (mulf hlin (broadcastInDim S50000x128 ![0, 1] Cert.ReferenceIdeal.Facts₀.bcast_S50000x1_S50000x128_0_1 s)))
      (broadcastInDim S50000x128 ![0, 1] Cert.ReferenceIdeal.Facts₀.bcast_S1x128_S50000x128_0_1 b))
    (broadcastInDim S50000x128 ![] Cert.ReferenceIdeal.Facts₀.bcast_S_S50000x128 (constant (F := Ideal) S_ .f32 0x00000000#32))

/-- The printed index maps over the 25 grid points: the row-indexed windows sit at block row t, column 0; the bias
    window always at block (0, 0). -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 25 := by
  have h := t.isLt
  have hN : cfg1.N = 25 := N_1
  omega

/-- The body's stored value at entry (p, e) of a tile. -/
theorem payload_at (h a : Vec Ideal S2000x128 .f32) (s : Vec Ideal S2000x1 .f32) (b : Vec Ideal S1x128 .f32) (p : Fin 2000) (e : Fin 128) :
    k1_pay1 h a s b (ix2 p e) = convAt (a (ix2 p e)) (h (ix2 p e)) (s (ix2 p 0)) (b (ix2 0 e)) := by
  unfold k1_pay1
  exact tile_conv h a s b shapeCasts_S2000x128_S2000x128 shapeCasts_S2000x1_S2000x1 shapeCasts_S1x128_S1x128
    broadcasts_S2000x1_S2000x128 broadcasts_S1x128_S2000x128 p e

/-- Row p of the transformed-feature tile at point t is row 2000·t + p of that array. -/
theorem features_block (c : Dev nD) (t : Fin cfg1.N) (p : Fin 2000) (q : Fin 128) (r : Fin 50000) (hr : r.val = t.val * 2000 + p.val) :
    iblk1 V c 0 t (ix2 p q) = V c main_v28 (ix2 r q) := by
  obtain ⟨e0, e1, -⟩ := index_maps t
  show V c main_v28 (((cfg1.win 0).blk t).view.emb (ix2 p q)) = V c main_v28 (ix2 r q)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * q.val = q.val; omega

/-- Row p of the aggregated-neighbour tile at point t is row 2000·t + p of that array. -/
theorem neighbours_block (c : Dev nD) (t : Fin cfg1.N) (p : Fin 2000) (q : Fin 128) (r : Fin 50000) (hr : r.val = t.val * 2000 + p.val) :
    iblk1 V c 1 t (ix2 p q) = V c main_v41 (ix2 r q) := by
  obtain ⟨-, -, e2, e3, -⟩ := index_maps t
  show V c main_v41 (((cfg1.win 1).blk t).view.emb (ix2 p q)) = V c main_v41 (ix2 r q)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * q.val = q.val; omega

/-- Entry p of the self-loop-weight tile at point t is entry 2000·t + p of the column. -/
theorem selfloop_block (c : Dev nD) (t : Fin cfg1.N) (p : Fin 2000) (r : Fin 50000) (hr : r.val = t.val * 2000 + p.val) :
    iblk1 V c 2 t (ix2 p (0 : Fin 1)) = V c main_v27 (ix2 r (0 : Fin 1)) := by
  obtain ⟨-, -, -, -, e4, e5, -⟩ := index_maps t
  show V c main_v27 (((cfg1.win 2).blk t).view.emb (ix2 p (0 : Fin 1))) = V c main_v27 (ix2 r (0 : Fin 1))
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The bias window's block is the whole bias row at every point. -/
theorem bias_block (c : Dev nD) (t : Fin cfg1.N) (e : Fin 128) :
    iblk1 V c 3 t (ix2 (0 : Fin 1) e) = V c main_v42 (ix2 (0 : Fin 1) e) := by
  obtain ⟨-, -, -, -, -, -, e6, e7, -⟩ := index_maps t
  show V c main_v42 (((cfg1.win 3).blk t).view.emb (ix2 (0 : Fin 1) e)) = V c main_v42 (ix2 (0 : Fin 1) e)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * e.val = e.val; omega

/-- Entry (p, e) of the output tile at point t sits at row 2000·t + p, column e of the output array. -/
theorem out_block (t : Fin cfg1.N) (p : Fin 2000) (e : Fin 128) (r : Fin 50000) (hr : r.val = t.val * 2000 + p.val) :
    ((cfg1.win 4).blk t).view.emb (ix2 p e) = ix2 r e := by
  obtain ⟨-, -, -, -, -, -, -, -, e8, e9⟩ := index_maps t
  refine funext fun a => Fin.ext ?_
  match a with
  | ⟨0, _⟩ => show win1_4.index t (0 : Fin 2) * 2000 + 1 * p.val = r.val; omega
  | ⟨1, _⟩ => show win1_4.index t (1 : Fin 2) * 128 + 1 * e.val = e.val; omega

/-- What point t writes back is tile t of the combining step over all rows. -/
theorem flushed (c : Dev nD) (t : Fin cfg1.N) :
    (dat1 V c).flushed 4 t
      = ((cfg1.win 4).blk t).view.read (Elt Ideal) (combined (V c main_v28) (V c main_v41) (V c main_v27) (V c main_v42)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  refine funext fun (j : S2000x128.Idx) => ?_
  obtain ⟨p, e, rfl⟩ : ∃ (p : Fin 2000) (e : Fin 128), j = ix2 p e := ⟨j 0, j 1, eq_ix2 j⟩
  have ht := point_lt t
  have hp := p.isLt
  let r : Fin 50000 := ⟨t.val * 2000 + p.val, by omega⟩
  show k1_pay1 (iblk1 V c 0 t) (iblk1 V c 1 t) (iblk1 V c 2 t) (iblk1 V c 3 t) (ix2 p e)
    = combined (V c main_v28) (V c main_v41) (V c main_v27) (V c main_v42) (((cfg1.win 4).blk t).view.emb (ix2 p e))
  rw [payload_at, out_block t p e r rfl]
  refine Eq.trans ?_ (host_conv (V c main_v28) (V c main_v41) (V c main_v27) (V c main_v42) _ _ _ r e).symm
  rw [features_block V c t p e r rfl, neighbours_block V c t p e r rfl, selfloop_block V c t p r rfl, bias_block V c t e]

/-- Every row of the output array lies in some point's tile: row i in tile i / 2000. -/
theorem covered (i : S50000x128.Idx) :
    ∃ t : Fin cfg1.N, (cfg1.win 4).flush t = true ∧ i ∈ ((cfg1.win 4).blk t).view.set := by
  have h0 : (i 0).val < 50000 := (i 0).isLt
  have h1 : (i 1).val < 128 := (i 1).isLt
  have hN : cfg1.N = 25 := N_1
  let t : Fin cfg1.N := ⟨(i 0).val / 2000, by omega⟩
  obtain ⟨-, -, -, -, -, -, -, -, e8, e9⟩ := index_maps t
  have ht : t.val = (i 0).val / 2000 := rfl
  refine ⟨t, flush1_4 t, ?_⟩
  show i ∈ ((View.whole main_v43).slice (win1_4.rect t)).set
  rw [View.set_slice_whole, Rect.mem_set_unit]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the region the output array holds the combining step of the four arrays as the region found them. -/
theorem final (c : Dev nD) :
    (dat1 V c).arrAt 4 cfg1.N = combined (V c main_v28) (V c main_v41) (V c main_v27) (V c main_v42) :=
  (dat1 V c).arrAt_eq_of_cover 4 (combined (V c main_v28) (V c main_v41) (V c main_v27) (V c main_v42)) (fun t _ => flushed V c t) covered

end Cert.KernelIdeal.Region1

end
-- ==== Proof.Walk1.lean ====
/-
  The idealized kernel's buffers at the first four segment boundaries, each as the reference's own stage of the launch
  arguments.

  Boundary 1 follows the first stretch of host operations: the source and destination columns of the edge list, the
  per-edge weights and the column of self-loop weights are computed by the same operations in both programs (only the
  last re-layout is spelt differently). Boundary 2 follows the first product region, boundary 3 the first
  gather–scale–scatter stretch, boundary 4 the first combining region. A buffer that a segment does not write keeps its
  contents across it.
-/
import proofs.«147116_j32804960207401_1_alg».proof.Proof.Gen.KernelIdeal.Frame
import proofs.«147116_j32804960207401_1_alg».proof.Proof.Gen.ReferenceIdeal.Read
import proofs.«147116_j32804960207401_1_alg».proof.Proof.LibReshapeBroadcast
import proofs.«147116_j32804960207401_1_alg».proof.Proof.Region0
import proofs.«147116_j32804960207401_1_alg».proof.Proof.Region1
import Idealize.ShloMosaic.Lib.StableHlo.Run

set_option maxRecDepth 16384
set_option maxHeartbeats 4000000

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Boundary 1: after the first stretch of host operations -/

theorem b1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

theorem b1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

theorem b1_v25 : W1 m ρ c (Proc.devRef .tc main_v25) = Cert.ReferenceIdeal.Read.val_main_v25 (F := Ideal) (m ((c : Thread nD τ).loc main_arg1)) := by
  show StableHlo.after hostOps0 (W0 m ρ c) (Proc.devRef .tc main_v25) = _
  after_results_simp
  rfl

/-- The column of self-loop weights: the kernel's program reshapes the vector dis·dis to a column, the reference
    broadcasts it along axis 0; the same column. -/
theorem b1_v27 : W1 m ρ c (Proc.devRef .tc main_v27) = Cert.ReferenceIdeal.Read.val_main_v27 (F := Ideal) (m ((c : Thread nD τ).loc main_arg1)) := by
  have e : W1 m ρ c (Proc.devRef .tc main_v27) = shapeCast S50000x1 (Cert.ReferenceIdeal.Read.val_main_v26 (F := Ideal) (m ((c : Thread nD τ).loc main_arg1))) shapeCasts_S50000_S50000x1 := by
    show StableHlo.after hostOps0 (W0 m ρ c) (Proc.devRef .tc main_v27) = _
    after_results_simp
    rfl
  rw [e]
  exact Cert.GraphNet.column_reshape_eq_broadcast _ _ _

theorem b1_arg0 : W1 m ρ c (Proc.devRef .tc main_arg0) = (m ((c : Thread nD τ).loc main_arg0)) := by
  show StableHlo.after hostOps0 (W0 m ρ c) (Proc.devRef .tc main_arg0) = _
  after_results_simp <;> rfl

theorem b1_arg2 : W1 m ρ c (Proc.devRef .tc main_arg2) = (m ((c : Thread nD τ).loc main_arg2)) := by
  show StableHlo.after hostOps0 (W0 m ρ c) (Proc.devRef .tc main_arg2) = _
  after_results_simp <;> rfl

theorem b1_arg3 : W1 m ρ c (Proc.devRef .tc main_arg3) = (m ((c : Thread nD τ).loc main_arg3)) := by
  show StableHlo.after hostOps0 (W0 m ρ c) (Proc.devRef .tc main_arg3) = _
  after_results_simp <;> rfl

theorem b1_arg4 : W1 m ρ c (Proc.devRef .tc main_arg4) = (m ((c : Thread nD τ).loc main_arg4)) := by
  show StableHlo.after hostOps0 (W0 m ρ c) (Proc.devRef .tc main_arg4) = _
  after_results_simp <;> rfl

theorem b1_arg5 : W1 m ρ c (Proc.devRef .tc main_arg5) = (m ((c : Thread nD τ).loc main_arg5)) := by
  show StableHlo.after hostOps0 (W0 m ρ c) (Proc.devRef .tc main_arg5) = _
  after_results_simp <;> rfl

theorem b1_arg6 : W1 m ρ c (Proc.devRef .tc main_arg6) = (m ((c : Thread nD τ).loc main_arg6)) := by
  show StableHlo.after hostOps0 (W0 m ρ c) (Proc.devRef .tc main_arg6) = _
  after_results_simp <;> rfl

theorem b1_arg7 : W1 m ρ c (Proc.devRef .tc main_arg7) = (m ((c : Thread nD τ).loc main_arg7)) := by
  show StableHlo.after hostOps0 (W0 m ρ c) (Proc.devRef .tc main_arg7) = _
  after_results_simp <;> rfl

/-! ## Boundary 2: after the first product region -/

/-- After region 0 the transformed features are the reference's product of the same features with the same weights. -/
theorem b2_v28 : W2 m ρ c (Proc.devRef .tc main_v28) = Cert.ReferenceIdeal.Read.val_main_v28 (F := Ideal) (m ((c : Thread nD τ).loc main_arg0)) (m ((c : Thread nD τ).loc main_arg2)) := by
  refine (W2_arr m ρ c 2).trans ((Region0.final (V1 m ρ) c).trans ?_)
  show Region0.product (W1 m ρ c (Proc.devRef .tc main_arg0)) (W1 m ρ c (Proc.devRef .tc main_arg2)) = _
  rw [b1_arg0 m ρ c, b1_arg2 m ρ c]
  rfl

theorem b2_v1 : W2 m ρ c (Proc.devRef .tc main_v1) = Cert.ReferenceIdeal.Read.val_main_v1 (F := Ideal) (m ((c : Thread nD τ).loc main_arg1)) :=
  (W2_of_ne m ρ c main_v1 (by decide)).trans (b1_v1 m ρ c)

theorem b2_v3 : W2 m ρ c (Proc.devRef .tc main_v3) = Cert.ReferenceIdeal.Read.val_main_v3 (F := Ideal) (m ((c : Thread nD τ).loc main_arg1)) :=
  (W2_of_ne m ρ c main_v3 (by decide)).trans (b1_v3 m ρ c)

theorem b2_v25 : W2 m ρ c (Proc.devRef .tc main_v25) = Cert.ReferenceIdeal.Read.val_main_v25 (F := Ideal) (m ((c : Thread nD τ).loc main_arg1)) :=
  (W2_of_ne m ρ c main_v25 (by decide)).trans (b1_v25 m ρ c)

theorem b2_v27 : W2 m ρ c (Proc.devRef .tc main_v27) = Cert.ReferenceIdeal.Read.val_main_v27 (F := Ideal) (m ((c : Thread nD τ).loc main_arg1)) :=
  (W2_of_ne m ρ c main_v27 (by decide)).trans (b1_v27 m ρ c)

theorem b2_arg3 : W2 m ρ c (Proc.devRef .tc main_arg3) = (m ((c : Thread nD τ).loc main_arg3)) :=
  (W2_of_ne m ρ c main_arg3 (by decide)).trans (b1_arg3 m ρ c)

theorem b2_arg4 : W2 m ρ c (Proc.devRef .tc main_arg4) = (m ((c : Thread nD τ).loc main_arg4)) :=
  (W2_of_ne m ρ c main_arg4 (by decide)).trans (b1_arg4 m ρ c)

theorem b2_arg5 : W2 m ρ c (Proc.devRef .tc main_arg5) = (m ((c : Thread nD τ).loc main_arg5)) :=
  (W2_of_ne m ρ c main_arg5 (by decide)).trans (b1_arg5 m ρ c)

theorem b2_arg6 : W2 m ρ c (Proc.devRef .tc main_arg6) = (m ((c : Thread nD τ).loc main_arg6)) :=
  (W2_of_ne m ρ c main_arg6 (by decide)).trans (b1_arg6 m ρ c)

theorem b2_arg7 : W2 m ρ c (Proc.devRef .tc main_arg7) = (m ((c : Thread nD τ).loc main_arg7)) :=
  (W2_of_ne m ρ c main_arg7 (by decide)).trans (b1_arg7 m ρ c)

/-! ## Boundary 3: after the first gather–scale–scatter stretch -/

/-- The neighbour aggregation of the stretch (gather the source rows, scale by the edge weights, sum into the
    destination rows) is the reference's, operation for operation, of the same features and edge list. -/
theorem b3_v41 : W3 m ρ c (Proc.devRef .tc main_v41) = Cert.ReferenceIdeal.Read.val_main_v41 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  rw [b2_v28 m ρ c, b2_v1 m ρ c, b2_v3 m ρ c, b2_v25 m ρ c]
  rfl

/-- The bias made a row by a reshape is the reference's bias made a row by a broadcast along axis 1. -/
theorem b3_v42 : W3 m ρ c (Proc.devRef .tc main_v42) = Cert.ReferenceIdeal.Read.val_main_v45 (F := Ideal) (m ((c : Thread nD τ).loc main_arg3)) := by
  have e : W3 m ρ c (Proc.devRef .tc main_v42) = shapeCast S1x128 (W2 m ρ c (Proc.devRef .tc main_arg3)) shapeCasts_S128_S1x128 := by
    show StableHlo.after hostOps1 (W2 m ρ c) (Proc.devRef .tc main_v42) = _
    after_results_simp <;> rfl
  rw [e, b2_arg3 m ρ c]
  exact Cert.GraphNet.row_reshape_eq_broadcast _ _ _

theorem b3_v28 : W3 m ρ c (Proc.devRef .tc main_v28) = Cert.ReferenceIdeal.Read.val_main_v28 (F := Ideal) (m ((c : Thread nD τ).loc main_arg0)) (m ((c : Thread nD τ).loc main_arg2)) :=
  (show StableHlo.after hostOps1 (W2 m ρ c) (Proc.devRef .tc main_v28) = W2 m ρ c (Proc.devRef .tc main_v28) from by after_results_simp <;> rfl).trans (b2_v28 m ρ c)

theorem b3_v1 : W3 m ρ c (Proc.devRef .tc main_v1) = Cert.ReferenceIdeal.Read.val_main_v1 (F := Ideal) (m ((c : Thread nD τ).loc main_arg1)) :=
  (show StableHlo.after hostOps1 (W2 m ρ c) (Proc.devRef .tc main_v1) = W2 m ρ c (Proc.devRef .tc main_v1) from by after_results_simp <;> rfl).trans (b2_v1 m ρ c)

theorem b3_v3 : W3 m ρ c (Proc.devRef .tc main_v3) = Cert.ReferenceIdeal.Read.val_main_v3 (F := Ideal) (m ((c : Thread nD τ).loc main_arg1)) :=
  (show StableHlo.after hostOps1 (W2 m ρ c) (Proc.devRef .tc main_v3) = W2 m ρ c (Proc.devRef .tc main_v3) from by after_results_simp <;> rfl).trans (b2_v3 m ρ c)

theorem b3_v25 : W3 m ρ c (Proc.devRef .tc main_v25) = Cert.ReferenceIdeal.Read.val_main_v25 (F := Ideal) (m ((c : Thread nD τ).loc main_arg1)) :=
  (show StableHlo.after hostOps1 (W2 m ρ c) (Proc.devRef .tc main_v25) = W2 m ρ c (Proc.devRef .tc main_v25) from by after_results_simp <;> rfl).trans (b2_v25 m ρ c)

theorem b3_v27 : W3 m ρ c (Proc.devRef .tc main_v27) = Cert.ReferenceIdeal.Read.val_main_v27 (F := Ideal) (m ((c : Thread nD τ).loc main_arg1)) :=
  (show StableHlo.after hostOps1 (W2 m ρ c) (Proc.devRef .tc main_v27) = W2 m ρ c (Proc.devRef .tc main_v27) from by after_results_simp <;> rfl).trans (b2_v27 m ρ c)

theorem b3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) from by after_results_simp <;> rfl).trans (b2_arg4 m ρ c)

theorem b3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) from by after_results_simp <;> rfl).trans (b2_arg5 m ρ c)

theorem b3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) from by after_results_simp <;> rfl).trans (b2_arg6 m ρ c)

theorem b3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) from by after_results_simp <;> rfl).trans (b2_arg7 m ρ c)

/-! ## Boundary 4: after the first combining region -/

/-- After region 1 the layer's output is the reference's combining step and rectifier of the same four arrays. -/
theorem b4_v43 : W4 m ρ c (Proc.devRef .tc main_v43) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Region1.final (V3 m ρ) c).trans ?_)
  show Region1.combined (W3 m ρ c (Proc.devRef .tc main_v28)) (W3 m ρ c (Proc.devRef .tc main_v41)) (W3 m ρ c (Proc.devRef .tc main_v27)) (W3 m ρ c (Proc.devRef .tc main_v42)) = _
  rw [b3_v28 m ρ c, b3_v41 m ρ c, b3_v27 m ρ c, b3_v42 m ρ c]
  rfl

theorem b4_v1 : W4 m ρ c (Proc.devRef .tc main_v1) = Cert.ReferenceIdeal.Read.val_main_v1 (F := Ideal) (m ((c : Thread nD τ).loc main_arg1)) :=
  (W4_of_ne m ρ c main_v1 (by decide)).trans (b3_v1 m ρ c)

theorem b4_v3 : W4 m ρ c (Proc.devRef .tc main_v3) = Cert.ReferenceIdeal.Read.val_main_v3 (F := Ideal) (m ((c : Thread nD τ).loc main_arg1)) :=
  (W4_of_ne m ρ c main_v3 (by decide)).trans (b3_v3 m ρ c)

theorem b4_v25 : W4 m ρ c (Proc.devRef .tc main_v25) = Cert.ReferenceIdeal.Read.val_main_v25 (F := Ideal) (m ((c : Thread nD τ).loc main_arg1)) :=
  (W4_of_ne m ρ c main_v25 (by decide)).trans (b3_v25 m ρ c)

theorem b4_v27 : W4 m ρ c (Proc.devRef .tc main_v27) = Cert.ReferenceIdeal.Read.val_main_v27 (F := Ideal) (m ((c : Thread nD τ).loc main_arg1)) :=
  ((W4_arr m ρ c 2).trans (((dat1 (V3 m ρ) c).arrAt_in 2 rfl _).trans (A_eq1 (V3 m ρ) c 2))).trans (b3_v27 m ρ c)

theorem b4_arg4 : W4 m ρ c (Proc.devRef .tc main_arg4) = (m ((c : Thread nD τ).loc main_arg4)) :=
  (W4_of_ne m ρ c main_arg4 (by decide)).trans (b3_arg4 m ρ c)

theorem b4_arg5 : W4 m ρ c (Proc.devRef .tc main_arg5) = (m ((c : Thread nD τ).loc main_arg5)) :=
  (W4_of_ne m ρ c main_arg5 (by decide)).trans (b3_arg5 m ρ c)

theorem b4_arg6 : W4 m ρ c (Proc.devRef .tc main_arg6) = (m ((c : Thread nD τ).loc main_arg6)) :=
  (W4_of_ne m ρ c main_arg6 (by decide)).trans (b3_arg6 m ρ c)

theorem b4_arg7 : W4 m ρ c (Proc.devRef .tc main_arg7) = (m ((c : Thread nD τ).loc main_arg7)) :=
  (W4_of_ne m ρ c main_arg7 (by decide)).trans (b3_arg7 m ρ c)

end Cert.KernelIdeal.Walk

end
-- ==== Proof.Region2.lean ====
/-
  Region 2: the node features times a weight matrix, 2000 rows per grid point.

  Grid point t stages rows 2000·t … 2000·t + 1999 of the features and the whole weight matrix, multiplies them into a
  zero accumulator, and writes the 2000 × 128 tile back at the same rows. Entry (p, e) of a tile's product reads only
  row p of the tile, which is row 2000·t + p of the features; so each tile written back is the matching tile of the
  product of ALL rows with the weights, the 25 tiles cover the 50000 rows, and the array ends holding that product.
-/
import proofs.«147116_j32804960207401_1_alg».proof.Proof.Gen.KernelIdeal.Frame
import proofs.«147116_j32804960207401_1_alg».proof.Proof.LibGraphLayers

set_option maxRecDepth 16384

noncomputable section

namespace Cert.KernelIdeal.Region2

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The product of all 50000 rows with the weights. -/
abbrev product (X : FVec Ideal S50000x128 .f32) (W : FVec Ideal S128x128 .f32) : FVec Ideal S50000x128 .f32 :=
  Host.dotGeneral (DotDims.plain 50000 128 128) none X W

/-- The printed index maps over the 25 grid points: the feature and output windows sit at block row t, column 0; the
    weight window always at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 25 := by
  have h := t.isLt
  have hN : cfg2.N = 25 := N_2
  omega

/-- The body's stored value at entry (p, e) of a tile. -/
theorem payload_at (x : Vec Ideal S2000x128 .f32) (w : Vec Ideal S128x128 .f32) (p : Fin 2000) (e : Fin 128) :
    k2_pay1 x w (ix2 p e) = prodAt x w p e := by
  unfold k2_pay1
  rw [shapeCast_self x]
  exact tile_prod dot_S2000x128_S128x128_S2000x128_1_0_0_1_n_n rfl x w bitsLt_bf16_f32 p e

/-- Row p of the feature tile at point t is row 2000·t + p of the feature array. -/
theorem rows_block (c : Dev nD) (t : Fin cfg2.N) (p : Fin 2000) (q : Fin 128) (r : Fin 50000) (hr : r.val = t.val * 2000 + p.val) :
    iblk2 V c 0 t (ix2 p q) = V c main_v43 (ix2 r q) := by
  obtain ⟨e0, e1, -, -, -, -⟩ := index_maps t
  show V c main_v43 (((cfg2.win 0).blk t).view.emb (ix2 p q)) = V c main_v43 (ix2 r q)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * q.val = q.val; omega

/-- The weight window's block is the whole weight matrix at every point. -/
theorem weights_block (c : Dev nD) (t : Fin cfg2.N) (q : Fin 128) (e : Fin 128) :
    iblk2 V c 1 t (ix2 q e) = V c main_arg4 (ix2 q e) := by
  obtain ⟨-, -, e2, e3, -, -⟩ := index_maps t
  show V c main_arg4 (((cfg2.win 1).blk t).view.emb (ix2 q e)) = V c main_arg4 (ix2 q e)
  refine congrArg _ (funext fun a => Fin.ext ?_)
  match a with
  | ⟨0, _⟩ => show win2_1.index t (0 : Fin 2) * 128 + 1 * q.val = q.val; omega
  | ⟨1, _⟩ => show win2_1.index t (1 : Fin 2) * 128 + 1 * e.val = e.val; omega

/-- Entry (p, e) of the output tile at point t sits at row 2000·t + p, column e of the output array. -/
theorem out_block (t : Fin cfg2.N) (p : Fin 2000) (e : Fin 128) (r : Fin 50000) (hr : r.val = t.val * 2000 + p.val) :
    ((cfg2.win 2).blk t).view.emb (ix2 p e) = ix2 r e := by
  obtain ⟨-, -, -, -, e4, e5⟩ := index_maps t
  refine funext fun a => Fin.ext ?_
  match a with
  | ⟨0, _⟩ => show win2_2.index t (0 : Fin 2) * 2000 + 1 * p.val = r.val; omega
  | ⟨1, _⟩ => show win2_2.index t (1 : Fin 2) * 128 + 1 * e.val = e.val; omega

/-- What point t writes back is tile t of the product of all rows with the weights. -/
theorem flushed (c : Dev nD) (t : Fin cfg2.N) :
    (dat2 V c).flushed 2 t = ((cfg2.win 2).blk t).view.read (Elt Ideal) (product (V c main_v43) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  refine funext fun (j : S2000x128.Idx) => ?_
  obtain ⟨p, e, rfl⟩ : ∃ (p : Fin 2000) (e : Fin 128), j = ix2 p e := ⟨j 0, j 1, eq_ix2 j⟩
  have ht := point_lt t
  have hp := p.isLt
  let r : Fin 50000 := ⟨t.val * 2000 + p.val, by omega⟩
  show k2_pay1 (iblk2 V c 0 t) (iblk2 V c 1 t) (ix2 p e)
    = product (V c main_v43) (V c main_arg4) (((cfg2.win 2).blk t).view.emb (ix2 p e))
  rw [payload_at, out_block t p e r rfl]
  refine Eq.trans ?_ (host_prod (DotDims.plain 50000 128 128) rfl (V c main_v43) (V c main_arg4) r e).symm
  unfold prodAt
  refine Finset.sum_congr rfl fun q _ => ?_
  rw [rows_block V c t p q r rfl, weights_block V c t q e]

/-- Every row of the output array lies in some point's tile: row i in tile i / 2000. -/
theorem covered (i : S50000x128.Idx) :
    ∃ t : Fin cfg2.N, (cfg2.win 2).flush t = true ∧ i ∈ ((cfg2.win 2).blk t).view.set := by
  have h0 : (i 0).val < 50000 := (i 0).isLt
  have h1 : (i 1).val < 128 := (i 1).isLt
  have hN : cfg2.N = 25 := N_2
  let t : Fin cfg2.N := ⟨(i 0).val / 2000, by omega⟩
  obtain ⟨-, -, -, -, e4, e5⟩ := index_maps t
  have ht : t.val = (i 0).val / 2000 := rfl
  refine ⟨t, flush2_2 t, ?_⟩
  show i ∈ ((View.whole main_v44).slice (win2_2.rect t)).set
  rw [View.set_slice_whole, Rect.mem_set_unit]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the output array holds the product of the feature array, as the region found it, with the
    weights. -/
theorem final (c : Dev nD) :
    (dat2 V c).arrAt 2 cfg2.N = product (V c main_v43) (V c main_arg4) :=
  (dat2 V c).arrAt_eq_of_cover 2 (product (V c main_v43) (V c main_arg4)) (fun t _ => flushed V c t) covered

end Cert.KernelIdeal.Region2

end
-- ==== Proof.Region3.lean ====
/-
  Region 3: a graph-convolution layer's combining step, 2000 rows per grid point.

  Grid point t stages rows 2000·t … 2000·t + 1999 of the transformed features, of the aggregated neighbours and of the
  column of self-loop weights, and the whole bias row; entry (p, e) of what it writes back is
  max((agg(p, e) + hlin(p, e) · s(p)) + b(e), 0) read at row 2000·t + p. That is the matching tile of the same formula
  taken over all rows at once, the 25 tiles cover the 50000 rows, and the array ends holding that.
-/
import proofs.«147116_j32804960207401_1_alg».proof.Proof.Gen.KernelIdeal.Frame
import proofs.«147116_j32804960207401_1_alg».proof.Proof.Gen.ReferenceIdeal
import proofs.«147116_j32804960207401_1_alg».proof.Proof.LibGraphLayers

set_option maxRecDepth 16384

noncomputable section

namespace Cert.KernelIdeal.Region3

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The combining step over all 50000 rows at once: the column of self-loop weights spread over the channels, the
    bias row spread over the rows, the rectifier as a maximum with zero. -/
abbrev combined (hlin agg : FVec Ideal S50000x128 .f32) (s : FVec Ideal S50000x1 .f32) (b : FVec Ideal S1x128 .f32) :
    FVec Ideal S50000x128 .f32 :=
  maximumf (addf (addf agg (mulf hlin (broadcastInDim S50000x128 ![0, 1] Cert.ReferenceIdeal.Facts₀.bcast_S50000x1_S50000x128_0_1 s)))
      (broadcastInDim S50000x128 ![0, 1] Cert.ReferenceIdeal.Facts₀.bcast_S1x128_S50000x128_0_1 b))
    (broadcastInDim S50000x128 ![] Cert.ReferenceIdeal.Facts₀.bcast_S_S50000x128 (constant (F := Ideal) S_ .f32 0x00000000#32))

/-- The printed index maps over the 25 grid points: the row-indexed windows sit at block row t, column 0; the bias
    window always at block (0, 0). -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem point_lt (t : Fin cfg3.N) : t.val < 25 := by
  have h := t.isLt
  have hN : cfg3.N = 25 := N_3
  omega

/-- The body's stored value at entry (p, e) of a tile. -/
theorem payload_at (h a : Vec Ideal S2000x128 .f32) (s : Vec Ideal S2000x1 .f32) (b : Vec Ideal S1x128 .f32) (p : Fin 2000) (e : Fin 128) :
    k3_pay1 h a s b (ix2 p e) = convAt (a (ix2 p e)) (h (ix2 p e)) (s (ix2 p 0)) (b (ix2 0 e)) := by
  unfold k3_pay1
  exact tile_conv h a s b shapeCasts_S2000x128_S2000x128 shapeCasts_S2000x1_S2000x1 shapeCasts_S1x128_S1x128
    broadcasts_S2000x1_S2000x128 broadcasts_S1x128_S2000x128 p e

/-- Row p of the transformed-feature tile at point t is row 2000·t + p of that array. -/
theorem features_block (c : Dev nD) (t : Fin cfg3.N) (p : Fin 2000) (q : Fin 128) (r : Fin 50000) (hr : r.val = t.val * 2000 + p.val) :
    iblk3 V c 0 t (ix2 p q) = V c main_v44 (ix2 r q) := by
  obtain ⟨e0, e1, -⟩ := index_maps t
  show V c main_v44 (((cfg3.win 0).blk t).view.emb (ix2 p q)) = V c main_v44 (ix2 r q)
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * q.val = q.val; omega

/-- Row p of the aggregated-neighbour tile at point t is row 2000·t + p of that array. -/
theorem neighbours_block (c : Dev nD) (t : Fin cfg3.N) (p : Fin 2000) (q : Fin 128) (r : Fin 50000) (hr : r.val = t.val * 2000 + p.val) :
    iblk3 V c 1 t (ix2 p q) = V c main_v57 (ix2 r q) := by
  obtain ⟨-, -, e2, e3, -⟩ := index_maps t
  show V c main_v57 (((cfg3.win 1).blk t).view.emb (ix2 p q)) = V c main_v57 (ix2 r q)
  refine congrArg _ (funext fun a => Fin.ext ?_)
  match a with
  | ⟨0, _⟩ => show win3_1.index t (0 : Fin 2) * 2000 + 1 * p.val = r.val; omega
  | ⟨1, _⟩ => show win3_1.index t (1 : Fin 2) * 128 + 1 * q.val = q.val; omega

/-- Entry p of the self-loop-weight tile at point t is entry 2000·t + p of the column. -/
theorem selfloop_block (c : Dev nD) (t : Fin cfg3.N) (p : Fin 2000) (r : Fin 50000) (hr : r.val = t.val * 2000 + p.val) :
    iblk3 V c 2 t (ix2 p (0 : Fin 1)) = V c main_v27 (ix2 r (0 : Fin 1)) := by
  obtain ⟨-, -, -, -, e4, e5, -⟩ := index_maps t
  show V c main_v27 (((cfg3.win 2).blk t).view.emb (ix2 p (0 : Fin 1))) = V c main_v27 (ix2 r (0 : Fin 1))
  refine congrArg _ (funext fun a => Fin.ext ?_)
  match a with
  | ⟨0, _⟩ => show win3_2.index t (0 : Fin 2) * 2000 + 1 * p.val = r.val; omega
  | ⟨1, _⟩ => show win3_2.index t (1 : Fin 2) * 1 + 1 * 0 = 0; omega

/-- The bias window's block is the whole bias row at every point. -/
theorem bias_block (c : Dev nD) (t : Fin cfg3.N) (e : Fin 128) :
    iblk3 V c 3 t (ix2 (0 : Fin 1) e) = V c main_v58 (ix2 (0 : Fin 1) e) := by
  obtain ⟨-, -, -, -, -, -, e6, e7, -⟩ := index_maps t
  show V c main_v58 (((cfg3.win 3).blk t).view.emb (ix2 (0 : Fin 1) e)) = V c main_v58 (ix2 (0 : Fin 1) e)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * e.val = e.val; omega

/-- Entry (p, e) of the output tile at point t sits at row 2000·t + p, column e of the output array. -/
theorem out_block (t : Fin cfg3.N) (p : Fin 2000) (e : Fin 128) (r : Fin 50000) (hr : r.val = t.val * 2000 + p.val) :
    ((cfg3.win 4).blk t).view.emb (ix2 p e) = ix2 r e := by
  obtain ⟨-, -, -, -, -, -, -, -, e8, e9⟩ := index_maps t
  refine funext fun a => Fin.ext ?_
  match a with
  | ⟨0, _⟩ => show win3_4.index t (0 : Fin 2) * 2000 + 1 * p.val = r.val; omega
  | ⟨1, _⟩ => show win3_4.index t (1 : Fin 2) * 128 + 1 * e.val = e.val; omega

/-- What point t writes back is tile t of the combining step over all rows. -/
theorem flushed (c : Dev nD) (t : Fin cfg3.N) :
    (dat3 V c).flushed 4 t
      = ((cfg3.win 4).blk t).view.read (Elt Ideal) (combined (V c main_v44) (V c main_v57) (V c main_v27) (V c main_v58)) := by
  show (cfg3.win 4).cut (grid3.coords t) ((dat3 V c).after 4 t) = _
  rw [after3_4]
  unfold out3_4
  rw [View.canon_unit_zero zero_offsets]
  simp only [View.ld_unit_zero (S := S2000x128) zero_offsets, View.ld_unit_zero (S := S2000x1) zero_offsets,
    View.ld_unit_zero (S := S1x128) zero_offsets]
  refine funext fun (j : S2000x128.Idx) => ?_
  obtain ⟨p, e, rfl⟩ : ∃ (p : Fin 2000) (e : Fin 128), j = ix2 p e := ⟨j 0, j 1, eq_ix2 j⟩
  have ht := point_lt t
  have hp := p.isLt
  let r : Fin 50000 := ⟨t.val * 2000 + p.val, by omega⟩
  show k3_pay1 (iblk3 V c 0 t) (iblk3 V c 1 t) (iblk3 V c 2 t) (iblk3 V c 3 t) (ix2 p e)
    = combined (V c main_v44) (V c main_v57) (V c main_v27) (V c main_v58) (((cfg3.win 4).blk t).view.emb (ix2 p e))
  rw [payload_at, out_block t p e r rfl]
  refine Eq.trans ?_ (host_conv (V c main_v44) (V c main_v57) (V c main_v27) (V c main_v58) _ _ _ r e).symm
  rw [features_block V c t p e r rfl, neighbours_block V c t p e r rfl, selfloop_block V c t p r rfl, bias_block V c t e]

/-- Every row of the output array lies in some point's tile: row i in tile i / 2000. -/
theorem covered (i : S50000x128.Idx) :
    ∃ t : Fin cfg3.N, (cfg3.win 4).flush t = true ∧ i ∈ ((cfg3.win 4).blk t).view.set := by
  have h0 : (i 0).val < 50000 := (i 0).isLt
  have h1 : (i 1).val < 128 := (i 1).isLt
  have hN : cfg3.N = 25 := N_3
  let t : Fin cfg3.N := ⟨(i 0).val / 2000, by omega⟩
  obtain ⟨-, -, -, -, -, -, -, -, e8, e9⟩ := index_maps t
  have ht : t.val = (i 0).val / 2000 := rfl
  refine ⟨t, flush3_4 t, ?_⟩
  show i ∈ ((View.whole main_v59).slice (win3_4.rect t)).set
  rw [View.set_slice_whole, Rect.mem_set_unit]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- After the region the output array holds the combining step of the four arrays as the region found them. -/
theorem final (c : Dev nD) :
    (dat3 V c).arrAt 4 cfg3.N = combined (V c main_v44) (V c main_v57) (V c main_v27) (V c main_v58) :=
  (dat3 V c).arrAt_eq_of_cover 4 (combined (V c main_v44) (V c main_v57) (V c main_v27) (V c main_v58)) (fun t _ => flushed V c t) covered

end Cert.KernelIdeal.Region3

end
-- ==== Proof.Region4.lean ====
/-
  Region 4: the node features times a weight matrix, 2000 rows per grid point.

  Grid point t stages rows 2000·t … 2000·t + 1999 of the features and the whole weight matrix, multiplies them into a
  zero accumulator, and writes the 2000 × 128 tile back at the same rows. Entry (p, e) of a tile's product reads only
  row p of the tile, which is row 2000·t + p of the features; so each tile written back is the matching tile of the
  product of ALL rows with the weights, the 25 tiles cover the 50000 rows, and the array ends holding that product.
-/
import proofs.«147116_j32804960207401_1_alg».proof.Proof.Gen.KernelIdeal.Frame
import proofs.«147116_j32804960207401_1_alg».proof.Proof.LibGraphLayers

set_option maxRecDepth 16384

noncomputable section

namespace Cert.KernelIdeal.Region4

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The product of all 50000 rows with the weights. -/
abbrev product (X : FVec Ideal S50000x128 .f32) (W : FVec Ideal S128x128 .f32) : FVec Ideal S50000x128 .f32 :=
  Host.dotGeneral (DotDims.plain 50000 128 128) none X W

/-- The printed index maps over the 25 grid points: the feature and output windows sit at block row t, column 0; the
    weight window always at block (0, 0). -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 25 := by
  have h := t.isLt
  have hN : cfg4.N = 25 := N_4
  omega

/-- The body's stored value at entry (p, e) of a tile. -/
theorem payload_at (x : Vec Ideal S2000x128 .f32) (w : Vec Ideal S128x128 .f32) (p : Fin 2000) (e : Fin 128) :
    k4_pay1 x w (ix2 p e) = prodAt x w p e := by
  unfold k4_pay1
  rw [shapeCast_self x]
  exact tile_prod dot_S2000x128_S128x128_S2000x128_1_0_0_1_n_n rfl x w bitsLt_bf16_f32 p e

/-- Row p of the feature tile at point t is row 2000·t + p of the feature array. -/
theorem rows_block (c : Dev nD) (t : Fin cfg4.N) (p : Fin 2000) (q : Fin 128) (r : Fin 50000) (hr : r.val = t.val * 2000 + p.val) :
    iblk4 V c 0 t (ix2 p q) = V c main_v59 (ix2 r q) := by
  obtain ⟨e0, e1, -, -, -, -⟩ := index_maps t
  show V c main_v59 (((cfg4.win 0).blk t).view.emb (ix2 p q)) = V c main_v59 (ix2 r q)
  refine congrArg _ (funext fun a => Fin.ext ?_)
  match a with
  | ⟨0, _⟩ => show win4_0.index t (0 : Fin 2) * 2000 + 1 * p.val = r.val; omega
  | ⟨1, _⟩ => show win4_0.index t (1 : Fin 2) * 128 + 1 * q.val = q.val; omega

/-- The weight window's block is the whole weight matrix at every point. -/
theorem weights_block (c : Dev nD) (t : Fin cfg4.N) (q : Fin 128) (e : Fin 128) :
    iblk4 V c 1 t (ix2 q e) = V c main_arg6 (ix2 q e) := by
  obtain ⟨-, -, e2, e3, -, -⟩ := index_maps t
  show V c main_arg6 (((cfg4.win 1).blk t).view.emb (ix2 q e)) = V c main_arg6 (ix2 q e)
  refine congrArg _ (funext fun a => Fin.ext ?_)
  match a with
  | ⟨0, _⟩ => show win4_1.index t (0 : Fin 2) * 128 + 1 * q.val = q.val; omega
  | ⟨1, _⟩ => show win4_1.index t (1 : Fin 2) * 128 + 1 * e.val = e.val; omega

/-- Entry (p, e) of the output tile at point t sits at row 2000·t + p, column e of the output array. -/
theorem out_block (t : Fin cfg4.N) (p : Fin 2000) (e : Fin 128) (r : Fin 50000) (hr : r.val = t.val * 2000 + p.val) :
    ((cfg4.win 2).blk t).view.emb (ix2 p e) = ix2 r e := by
  obtain ⟨-, -, -, -, e4, e5⟩ := index_maps t
  refine funext fun a => Fin.ext ?_
  match a with
  | ⟨0, _⟩ => show win4_2.index t (0 : Fin 2) * 2000 + 1 * p.val = r.val; omega
  | ⟨1, _⟩ => show win4_2.index t (1 : Fin 2) * 128 + 1 * e.val = e.val; omega

/-- What point t writes back is tile t of the product of all rows with the weights. -/
theorem flushed (c : Dev nD) (t : Fin cfg4.N) :
    (dat4 V c).flushed 2 t = ((cfg4.win 2).blk t).view.read (Elt Ideal) (product (V c main_v59) (V c main_arg6)) := by
  show (cfg4.win 2).cut (grid4.coords t) ((dat4 V c).after 2 t) = _
  rw [after4_2]
  unfold out4_2
  rw [View.canon_unit_zero zero_offsets]
  simp only [View.ld_unit_zero (S := S2000x128) zero_offsets, View.ld_unit_zero (S := S128x128) zero_offsets]
  refine funext fun (j : S2000x128.Idx) => ?_
  obtain ⟨p, e, rfl⟩ : ∃ (p : Fin 2000) (e : Fin 128), j = ix2 p e := ⟨j 0, j 1, eq_ix2 j⟩
  have ht := point_lt t
  have hp := p.isLt
  let r : Fin 50000 := ⟨t.val * 2000 + p.val, by omega⟩
  show k4_pay1 (iblk4 V c 0 t) (iblk4 V c 1 t) (ix2 p e)
    = product (V c main_v59) (V c main_arg6) (((cfg4.win 2).blk t).view.emb (ix2 p e))
  rw [payload_at, out_block t p e r rfl]
  refine Eq.trans ?_ (host_prod (DotDims.plain 50000 128 128) rfl (V c main_v59) (V c main_arg6) r e).symm
  unfold prodAt
  refine Finset.sum_congr rfl fun q _ => ?_
  rw [rows_block V c t p q r rfl, weights_block V c t q e]

/-- Every row of the output array lies in some point's tile: row i in tile i / 2000. -/
theorem covered (i : S50000x128.Idx) :
    ∃ t : Fin cfg4.N, (cfg4.win 2).flush t = true ∧ i ∈ ((cfg4.win 2).blk t).view.set := by
  have h0 : (i 0).val < 50000 := (i 0).isLt
  have h1 : (i 1).val < 128 := (i 1).isLt
  have hN : cfg4.N = 25 := N_4
  let t : Fin cfg4.N := ⟨(i 0).val / 2000, by omega⟩
  obtain ⟨-, -, -, -, e4, e5⟩ := index_maps t
  have ht : t.val = (i 0).val / 2000 := rfl
  refine ⟨t, flush4_2 t, ?_⟩
  show i ∈ ((View.whole main_v60).slice (win4_2.rect t)).set
  rw [View.set_slice_whole, Rect.mem_set_unit]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After the region the output array holds the product of the feature array, as the region found it, with the
    weights. -/
theorem final (c : Dev nD) :
    (dat4 V c).arrAt 2 cfg4.N = product (V c main_v59) (V c main_arg6) :=
  (dat4 V c).arrAt_eq_of_cover 2 (product (V c main_v59) (V c main_arg6)) (fun t _ => flushed V c t) covered

end Cert.KernelIdeal.Region4

end
-- ==== Proof.Walk2.lean ====
/-
  The idealized kernel's buffers at segment boundaries 5 to 8 — the second layer's product, its gather–scale–scatter
  stretch and combining region, and the third layer's product — each as the reference's own stage of the launch
  arguments. The edge list's two columns, the per-edge weights and the column of self-loop weights ride through
  unchanged: no segment writes them.
-/
import proofs.«147116_j32804960207401_1_alg».proof.Proof.Walk1
import proofs.«147116_j32804960207401_1_alg».proof.Proof.Region2
import proofs.«147116_j32804960207401_1_alg».proof.Proof.Region3
import proofs.«147116_j32804960207401_1_alg».proof.Proof.Region4
import Idealize.ShloMosaic.Lib.StableHlo.Run

set_option maxRecDepth 16384
set_option maxHeartbeats 4000000

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Boundary 5: after the second product region -/

/-- After region 2 the transformed features are the reference's product of the same features with the same weights. -/
theorem b5_v44 : W5 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Region2.final (V4 m ρ) c).trans ?_)
  show Region2.product (W4 m ρ c (Proc.devRef .tc main_v43)) (W4 m ρ c (Proc.devRef .tc main_arg4)) = _
  rw [b4_v43 m ρ c, b4_arg4 m ρ c]
  rfl

theorem b5_v1 : W5 m ρ c (Proc.devRef .tc main_v1) = Cert.ReferenceIdeal.Read.val_main_v1 (F := Ideal) (m ((c : Thread nD τ).loc main_arg1)) :=
  (W5_of_ne m ρ c main_v1 (by decide)).trans (b4_v1 m ρ c)

theorem b5_v3 : W5 m ρ c (Proc.devRef .tc main_v3) = Cert.ReferenceIdeal.Read.val_main_v3 (F := Ideal) (m ((c : Thread nD τ).loc main_arg1)) :=
  (W5_of_ne m ρ c main_v3 (by decide)).trans (b4_v3 m ρ c)

theorem b5_v25 : W5 m ρ c (Proc.devRef .tc main_v25) = Cert.ReferenceIdeal.Read.val_main_v25 (F := Ideal) (m ((c : Thread nD τ).loc main_arg1)) :=
  (W5_of_ne m ρ c main_v25 (by decide)).trans (b4_v25 m ρ c)

theorem b5_v27 : W5 m ρ c (Proc.devRef .tc main_v27) = Cert.ReferenceIdeal.Read.val_main_v27 (F := Ideal) (m ((c : Thread nD τ).loc main_arg1)) :=
  (W5_of_ne m ρ c main_v27 (by decide)).trans (b4_v27 m ρ c)

theorem b5_arg5 : W5 m ρ c (Proc.devRef .tc main_arg5) = (m ((c : Thread nD τ).loc main_arg5)) :=
  (W5_of_ne m ρ c main_arg5 (by decide)).trans (b4_arg5 m ρ c)

theorem b5_arg6 : W5 m ρ c (Proc.devRef .tc main_arg6) = (m ((c : Thread nD τ).loc main_arg6)) :=
  (W5_of_ne m ρ c main_arg6 (by decide)).trans (b4_arg6 m ρ c)

theorem b5_arg7 : W5 m ρ c (Proc.devRef .tc main_arg7) = (m ((c : Thread nD τ).loc main_arg7)) :=
  (W5_of_ne m ρ c main_arg7 (by decide)).trans (b4_arg7 m ρ c)

/-! ## Boundary 6: after the second gather–scale–scatter stretch -/

/-- The neighbour aggregation of the stretch (gather the source rows, scale by the edge weights, sum into the
    destination rows) is the reference's, operation for operation, of the same features and edge list. -/
theorem b6_v57 : W6 m ρ c (Proc.devRef .tc main_v57) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  rw [b5_v44 m ρ c, b5_v1 m ρ c, b5_v3 m ρ c, b5_v25 m ρ c]
  rfl

/-- The bias made a row by a reshape is the reference's bias made a row by a broadcast along axis 1. -/
theorem b6_v58 : W6 m ρ c (Proc.devRef .tc main_v58) = Cert.ReferenceIdeal.Read.val_main_v66 (F := Ideal) (m ((c : Thread nD τ).loc main_arg5)) := by
  have e : W6 m ρ c (Proc.devRef .tc main_v58) = shapeCast S1x128 (W5 m ρ c (Proc.devRef .tc main_arg5)) shapeCasts_S128_S1x128 := by
    show StableHlo.after hostOps3 (W5 m ρ c) (Proc.devRef .tc main_v58) = _
    after_results_simp <;> rfl
  rw [e, b5_arg5 m ρ c]
  exact Cert.GraphNet.row_reshape_eq_broadcast _ _ _

theorem b6_v44 : W6 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show StableHlo.after hostOps3 (W5 m ρ c) (Proc.devRef .tc main_v44) = W5 m ρ c (Proc.devRef .tc main_v44) from by after_results_simp <;> rfl).trans (b5_v44 m ρ c)

theorem b6_v1 : W6 m ρ c (Proc.devRef .tc main_v1) = Cert.ReferenceIdeal.Read.val_main_v1 (F := Ideal) (m ((c : Thread nD τ).loc main_arg1)) :=
  (show StableHlo.after hostOps3 (W5 m ρ c) (Proc.devRef .tc main_v1) = W5 m ρ c (Proc.devRef .tc main_v1) from by after_results_simp <;> rfl).trans (b5_v1 m ρ c)

theorem b6_v3 : W6 m ρ c (Proc.devRef .tc main_v3) = Cert.ReferenceIdeal.Read.val_main_v3 (F := Ideal) (m ((c : Thread nD τ).loc main_arg1)) :=
  (show StableHlo.after hostOps3 (W5 m ρ c) (Proc.devRef .tc main_v3) = W5 m ρ c (Proc.devRef .tc main_v3) from by after_results_simp <;> rfl).trans (b5_v3 m ρ c)

theorem b6_v25 : W6 m ρ c (Proc.devRef .tc main_v25) = Cert.ReferenceIdeal.Read.val_main_v25 (F := Ideal) (m ((c : Thread nD τ).loc main_arg1)) :=
  (show StableHlo.after hostOps3 (W5 m ρ c) (Proc.devRef .tc main_v25) = W5 m ρ c (Proc.devRef .tc main_v25) from by after_results_simp <;> rfl).trans (b5_v25 m ρ c)

theorem b6_v27 : W6 m ρ c (Proc.devRef .tc main_v27) = Cert.ReferenceIdeal.Read.val_main_v27 (F := Ideal) (m ((c : Thread nD τ).loc main_arg1)) :=
  (show StableHlo.after hostOps3 (W5 m ρ c) (Proc.devRef .tc main_v27) = W5 m ρ c (Proc.devRef .tc main_v27) from by after_results_simp <;> rfl).trans (b5_v27 m ρ c)

theorem b6_arg6 : W6 m ρ c (Proc.devRef .tc main_arg6) = (m ((c : Thread nD τ).loc main_arg6)) :=
  (show StableHlo.after hostOps3 (W5 m ρ c) (Proc.devRef .tc main_arg6) = W5 m ρ c (Proc.devRef .tc main_arg6) from by after_results_simp <;> rfl).trans (b5_arg6 m ρ c)

theorem b6_arg7 : W6 m ρ c (Proc.devRef .tc main_arg7) = (m ((c : Thread nD τ).loc main_arg7)) :=
  (show StableHlo.after hostOps3 (W5 m ρ c) (Proc.devRef .tc main_arg7) = W5 m ρ c (Proc.devRef .tc main_arg7) from by after_results_simp <;> rfl).trans (b5_arg7 m ρ c)

/-! ## Boundary 7: after the second combining region -/

/-- After region 3 the layer's output is the reference's combining step and rectifier of the same four arrays. -/
theorem b7_v59 : W7 m ρ c (Proc.devRef .tc main_v59) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((Region3.final (V6 m ρ) c).trans ?_)
  show Region3.combined (W6 m ρ c (Proc.devRef .tc main_v44)) (W6 m ρ c (Proc.devRef .tc main_v57)) (W6 m ρ c (Proc.devRef .tc main_v27)) (W6 m ρ c (Proc.devRef .tc main_v58)) = _
  rw [b6_v44 m ρ c, b6_v57 m ρ c, b6_v27 m ρ c, b6_v58 m ρ c]
  rfl

theorem b7_v1 : W7 m ρ c (Proc.devRef .tc main_v1) = Cert.ReferenceIdeal.Read.val_main_v1 (F := Ideal) (m ((c : Thread nD τ).loc main_arg1)) :=
  (W7_of_ne m ρ c main_v1 (by decide)).trans (b6_v1 m ρ c)

theorem b7_v3 : W7 m ρ c (Proc.devRef .tc main_v3) = Cert.ReferenceIdeal.Read.val_main_v3 (F := Ideal) (m ((c : Thread nD τ).loc main_arg1)) :=
  (W7_of_ne m ρ c main_v3 (by decide)).trans (b6_v3 m ρ c)

theorem b7_v25 : W7 m ρ c (Proc.devRef .tc main_v25) = Cert.ReferenceIdeal.Read.val_main_v25 (F := Ideal) (m ((c : Thread nD τ).loc main_arg1)) :=
  (W7_of_ne m ρ c main_v25 (by decide)).trans (b6_v25 m ρ c)

theorem b7_v27 : W7 m ρ c (Proc.devRef .tc main_v27) = Cert.ReferenceIdeal.Read.val_main_v27 (F := Ideal) (m ((c : Thread nD τ).loc main_arg1)) :=
  ((W7_arr m ρ c 2).trans (((dat3 (V6 m ρ) c).arrAt_in 2 rfl _).trans (A_eq3 (V6 m ρ) c 2))).trans (b6_v27 m ρ c)

theorem b7_arg6 : W7 m ρ c (Proc.devRef .tc main_arg6) = (m ((c : Thread nD τ).loc main_arg6)) :=
  (W7_of_ne m ρ c main_arg6 (by decide)).trans (b6_arg6 m ρ c)

theorem b7_arg7 : W7 m ρ c (Proc.devRef .tc main_arg7) = (m ((c : Thread nD τ).loc main_arg7)) :=
  (W7_of_ne m ρ c main_arg7 (by decide)).trans (b6_arg7 m ρ c)

/-! ## Boundary 8: after the third product region -/

/-- After region 4 the transformed features are the reference's product of the same features with the same weights. -/
theorem b8_v60 : W8 m ρ c (Proc.devRef .tc main_v60) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Region4.final (V7 m ρ) c).trans ?_)
  show Region4.product (W7 m ρ c (Proc.devRef .tc main_v59)) (W7 m ρ c (Proc.devRef .tc main_arg6)) = _
  rw [b7_v59 m ρ c, b7_arg6 m ρ c]
  rfl

theorem b8_v1 : W8 m ρ c (Proc.devRef .tc main_v1) = Cert.ReferenceIdeal.Read.val_main_v1 (F := Ideal) (m ((c : Thread nD τ).loc main_arg1)) :=
  (W8_of_ne m ρ c main_v1 (by decide)).trans (b7_v1 m ρ c)

theorem b8_v3 : W8 m ρ c (Proc.devRef .tc main_v3) = Cert.ReferenceIdeal.Read.val_main_v3 (F := Ideal) (m ((c : Thread nD τ).loc main_arg1)) :=
  (W8_of_ne m ρ c main_v3 (by decide)).trans (b7_v3 m ρ c)

theorem b8_v25 : W8 m ρ c (Proc.devRef .tc main_v25) = Cert.ReferenceIdeal.Read.val_main_v25 (F := Ideal) (m ((c : Thread nD τ).loc main_arg1)) :=
  (W8_of_ne m ρ c main_v25 (by decide)).trans (b7_v25 m ρ c)

theorem b8_v27 : W8 m ρ c (Proc.devRef .tc main_v27) = Cert.ReferenceIdeal.Read.val_main_v27 (F := Ideal) (m ((c : Thread nD τ).loc main_arg1)) :=
  (W8_of_ne m ρ c main_v27 (by decide)).trans (b7_v27 m ρ c)

theorem b8_arg7 : W8 m ρ c (Proc.devRef .tc main_arg7) = (m ((c : Thread nD τ).loc main_arg7)) :=
  (W8_of_ne m ρ c main_arg7 (by decide)).trans (b7_arg7 m ρ c)

end Cert.KernelIdeal.Walk

end
-- ==== Proof.Region5.lean ====
/-
  Region 5: a graph-convolution layer's combining step, 2000 rows per grid point.

  Grid point t stages rows 2000·t … 2000·t + 1999 of the transformed features, of the aggregated neighbours and of the
  column of self-loop weights, and the whole bias row; entry (p, e) of what it writes back is
  max((agg(p, e) + hlin(p, e) · s(p)) + b(e), 0) read at row 2000·t + p. That is the matching tile of the same formula
  taken over all rows at once, the 25 tiles cover the 50000 rows, and the array ends holding that.
-/
import proofs.«147116_j32804960207401_1_alg».proof.Proof.Gen.KernelIdeal.Frame
import proofs.«147116_j32804960207401_1_alg».proof.Proof.Gen.ReferenceIdeal
import proofs.«147116_j32804960207401_1_alg».proof.Proof.LibGraphLayers

set_option maxRecDepth 16384

noncomputable section

namespace Cert.KernelIdeal.Region5

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The combining step over all 50000 rows at once: the column of self-loop weights spread over the channels, the
    bias row spread over the rows, the rectifier as a maximum with zero. -/
abbrev combined (hlin agg : FVec Ideal S50000x128 .f32) (s : FVec Ideal S50000x1 .f32) (b : FVec Ideal S1x128 .f32) :
    FVec Ideal S50000x128 .f32 :=
  maximumf (addf (addf agg (mulf hlin (broadcastInDim S50000x128 ![0, 1] Cert.ReferenceIdeal.Facts₀.bcast_S50000x1_S50000x128_0_1 s)))
      (broadcastInDim S50000x128 ![0, 1] Cert.ReferenceIdeal.Facts₀.bcast_S1x128_S50000x128_0_1 b))
    (broadcastInDim S50000x128 ![] Cert.ReferenceIdeal.Facts₀.bcast_S_S50000x128 (constant (F := Ideal) S_ .f32 0x00000000#32))

/-- The printed index maps over the 25 grid points: the row-indexed windows sit at block row t, column 0; the bias
    window always at block (0, 0). -/
theorem index_maps : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem point_lt (t : Fin cfg5.N) : t.val < 25 := by
  have h := t.isLt
  have hN : cfg5.N = 25 := N_5
  omega

/-- The body's stored value at entry (p, e) of a tile. -/
theorem payload_at (h a : Vec Ideal S2000x128 .f32) (s : Vec Ideal S2000x1 .f32) (b : Vec Ideal S1x128 .f32) (p : Fin 2000) (e : Fin 128) :
    k5_pay1 h a s b (ix2 p e) = convAt (a (ix2 p e)) (h (ix2 p e)) (s (ix2 p 0)) (b (ix2 0 e)) := by
  unfold k5_pay1
  exact tile_conv h a s b shapeCasts_S2000x128_S2000x128 shapeCasts_S2000x1_S2000x1 shapeCasts_S1x128_S1x128
    broadcasts_S2000x1_S2000x128 broadcasts_S1x128_S2000x128 p e

/-- Row p of the transformed-feature tile at point t is row 2000·t + p of that array. -/
theorem features_block (c : Dev nD) (t : Fin cfg5.N) (p : Fin 2000) (q : Fin 128) (r : Fin 50000) (hr : r.val = t.val * 2000 + p.val) :
    iblk5 V c 0 t (ix2 p q) = V c main_v60 (ix2 r q) := by
  obtain ⟨e0, e1, -⟩ := index_maps t
  show V c main_v60 (((cfg5.win 0).blk t).view.emb (ix2 p q)) = V c main_v60 (ix2 r q)
  refine congrArg _ (funext fun a => Fin.ext ?_)
  match a with
  | ⟨0, _⟩ => show win5_0.index t (0 : Fin 2) * 2000 + 1 * p.val = r.val; omega
  | ⟨1, _⟩ => show win5_0.index t (1 : Fin 2) * 128 + 1 * q.val = q.val; omega

/-- Row p of the aggregated-neighbour tile at point t is row 2000·t + p of that array. -/
theorem neighbours_block (c : Dev nD) (t : Fin cfg5.N) (p : Fin 2000) (q : Fin 128) (r : Fin 50000) (hr : r.val = t.val * 2000 + p.val) :
    iblk5 V c 1 t (ix2 p q) = V c main_v73 (ix2 r q) := by
  obtain ⟨-, -, e2, e3, -⟩ := index_maps t
  show V c main_v73 (((cfg5.win 1).blk t).view.emb (ix2 p q)) = V c main_v73 (ix2 r q)
  refine congrArg _ (funext fun a => Fin.ext ?_)
  match a with
  | ⟨0, _⟩ => show win5_1.index t (0 : Fin 2) * 2000 + 1 * p.val = r.val; omega
  | ⟨1, _⟩ => show win5_1.index t (1 : Fin 2) * 128 + 1 * q.val = q.val; omega

/-- Entry p of the self-loop-weight tile at point t is entry 2000·t + p of the column. -/
theorem selfloop_block (c : Dev nD) (t : Fin cfg5.N) (p : Fin 2000) (r : Fin 50000) (hr : r.val = t.val * 2000 + p.val) :
    iblk5 V c 2 t (ix2 p (0 : Fin 1)) = V c main_v27 (ix2 r (0 : Fin 1)) := by
  obtain ⟨-, -, -, -, e4, e5, -⟩ := index_maps t
  show V c main_v27 (((cfg5.win 2).blk t).view.emb (ix2 p (0 : Fin 1))) = V c main_v27 (ix2 r (0 : Fin 1))
  refine congrArg _ (funext fun a => Fin.ext ?_)
  match a with
  | ⟨0, _⟩ => show win5_2.index t (0 : Fin 2) * 2000 + 1 * p.val = r.val; omega
  | ⟨1, _⟩ => show win5_2.index t (1 : Fin 2) * 1 + 1 * 0 = 0; omega

/-- The bias window's block is the whole bias row at every point. -/
theorem bias_block (c : Dev nD) (t : Fin cfg5.N) (e : Fin 128) :
    iblk5 V c 3 t (ix2 (0 : Fin 1) e) = V c main_v74 (ix2 (0 : Fin 1) e) := by
  obtain ⟨-, -, -, -, -, -, e6, e7, -⟩ := index_maps t
  show V c main_v74 (((cfg5.win 3).blk t).view.emb (ix2 (0 : Fin 1) e)) = V c main_v74 (ix2 (0 : Fin 1) e)
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * e.val = e.val; omega

/-- Entry (p, e) of the output tile at point t sits at row 2000·t + p, column e of the output array. -/
theorem out_block (t : Fin cfg5.N) (p : Fin 2000) (e : Fin 128) (r : Fin 50000) (hr : r.val = t.val * 2000 + p.val) :
    ((cfg5.win 4).blk t).view.emb (ix2 p e) = ix2 r e := by
  obtain ⟨-, -, -, -, -, -, -, -, e8, e9⟩ := index_maps t
  refine funext fun a => Fin.ext ?_
  match a with
  | ⟨0, _⟩ => show win5_4.index t (0 : Fin 2) * 2000 + 1 * p.val = r.val; omega
  | ⟨1, _⟩ => show win5_4.index t (1 : Fin 2) * 128 + 1 * e.val = e.val; omega

/-- What point t writes back is tile t of the combining step over all rows. -/
theorem flushed (c : Dev nD) (t : Fin cfg5.N) :
    (dat5 V c).flushed 4 t
      = ((cfg5.win 4).blk t).view.read (Elt Ideal) (combined (V c main_v60) (V c main_v73) (V c main_v27) (V c main_v74)) := by
  show (cfg5.win 4).cut (grid5.coords t) ((dat5 V c).after 4 t) = _
  rw [after5_4]
  unfold out5_4
  rw [View.canon_unit_zero zero_offsets]
  simp only [View.ld_unit_zero (S := S2000x128) zero_offsets, View.ld_unit_zero (S := S2000x1) zero_offsets,
    View.ld_unit_zero (S := S1x128) zero_offsets]
  refine funext fun (j : S2000x128.Idx) => ?_
  obtain ⟨p, e, rfl⟩ : ∃ (p : Fin 2000) (e : Fin 128), j = ix2 p e := ⟨j 0, j 1, eq_ix2 j⟩
  have ht := point_lt t
  have hp := p.isLt
  let r : Fin 50000 := ⟨t.val * 2000 + p.val, by omega⟩
  show k5_pay1 (iblk5 V c 0 t) (iblk5 V c 1 t) (iblk5 V c 2 t) (iblk5 V c 3 t) (ix2 p e)
    = combined (V c main_v60) (V c main_v73) (V c main_v27) (V c main_v74) (((cfg5.win 4).blk t).view.emb (ix2 p e))
  rw [payload_at, out_block t p e r rfl]
  refine Eq.trans ?_ (host_conv (V c main_v60) (V c main_v73) (V c main_v27) (V c main_v74) _ _ _ r e).symm
  rw [features_block V c t p e r rfl, neighbours_block V c t p e r rfl, selfloop_block V c t p r rfl, bias_block V c t e]

/-- Every row of the output array lies in some point's tile: row i in tile i / 2000. -/
theorem covered (i : S50000x128.Idx) :
    ∃ t : Fin cfg5.N, (cfg5.win 4).flush t = true ∧ i ∈ ((cfg5.win 4).blk t).view.set := by
  have h0 : (i 0).val < 50000 := (i 0).isLt
  have h1 : (i 1).val < 128 := (i 1).isLt
  have hN : cfg5.N = 25 := N_5
  let t : Fin cfg5.N := ⟨(i 0).val / 2000, by omega⟩
  obtain ⟨-, -, -, -, -, -, -, -, e8, e9⟩ := index_maps t
  have ht : t.val = (i 0).val / 2000 := rfl
  refine ⟨t, flush5_4 t, ?_⟩
  show i ∈ ((View.whole main_v75).slice (win5_4.rect t)).set
  rw [View.set_slice_whole, Rect.mem_set_unit]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

/-- After the region the output array holds the combining step of the four arrays as the region found them. -/
theorem final (c : Dev nD) :
    (dat5 V c).arrAt 4 cfg5.N = combined (V c main_v60) (V c main_v73) (V c main_v27) (V c main_v74) :=
  (dat5 V c).arrAt_eq_of_cover 4 (combined (V c main_v60) (V c main_v73) (V c main_v27) (V c main_v74)) (fun t _ => flushed V c t) covered

end Cert.KernelIdeal.Region5

end
-- ==== Proof.Region6.lean ====
/-
  Region 6: the two-layer head, 2000 rows per grid point.

  Grid point t stages rows 2000·t … 2000·t + 1999 of the last layer's features and the whole of both weight matrices
  and both bias rows; entry (p, e) of what it writes back is Σ_k ((H · W1)(p, k) + b1(k)) · W2(k, e) + b2(e) read at row
  2000·t + p. That is the matching tile of the same formula over all rows at once, the 25 tiles cover the 50000 rows,
  and the 50000 × 64 result array ends holding that.
-/
import proofs.«147116_j32804960207401_1_alg».proof.Proof.Gen.KernelIdeal.Frame
import proofs.«147116_j32804960207401_1_alg».proof.Proof.Gen.ReferenceIdeal
import proofs.«147116_j32804960207401_1_alg».proof.Proof.LibGraphLayers

set_option maxRecDepth 16384

noncomputable section

namespace Cert.KernelIdeal.Region6

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The head over all 50000 rows at once: two products, each followed by its bias row spread over the rows. -/
abbrev head (h : FVec Ideal S50000x128 .f32) (w1 : FVec Ideal S128x128 .f32) (b1 : FVec Ideal S1x128 .f32)
    (w2 : FVec Ideal S128x64 .f32) (b2 : FVec Ideal S1x64 .f32) : FVec Ideal S50000x64 .f32 :=
  addf (Host.dotGeneral (DotDims.plain 50000 128 64) none
      (addf (Host.dotGeneral (DotDims.plain 50000 128 128) none h w1)
        (broadcastInDim S50000x128 ![0, 1] Cert.ReferenceIdeal.Facts₀.bcast_S1x128_S50000x128_0_1 b1)) w2)
    (broadcastInDim S50000x64 ![0, 1] Cert.ReferenceIdeal.Facts₀.bcast_S1x64_S50000x64_0_1 b2)

/-- The printed index maps over the 25 grid points: the feature and output windows sit at block row t, column 0; the
    weight and bias windows always at block (0, 0). -/
theorem index_maps : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem point_lt (t : Fin cfg6.N) : t.val < 25 := by
  have h := t.isLt
  have hN : cfg6.N = 25 := N_6
  omega

/-- The body's stored value at entry (p, e) of a tile. -/
theorem payload_at (h : Vec Ideal S2000x128 .f32) (w1 : Vec Ideal S128x128 .f32) (b1 : Vec Ideal S1x128 .f32)
    (w2 : Vec Ideal S128x64 .f32) (b2 : Vec Ideal S1x64 .f32) (p : Fin 2000) (e : Fin 64) :
    k6_pay1 h w1 b1 w2 b2 (ix2 p e) = headAt h w1 (fun k => b1 (ix2 0 k)) w2 (fun e => b2 (ix2 0 e)) p e := by
  unfold k6_pay1
  exact tile_head dot_S2000x128_S128x128_S2000x128_1_0_0_1_n_n rfl dot_S2000x128_S128x64_S2000x64_1_0_0_1_n_n rfl h w1 b1 w2 b2
    shapeCasts_S2000x128_S2000x128 shapeCasts_S1x128_S1x128 shapeCasts_S1x64_S1x64
    broadcasts_S1x128_S2000x128 broadcasts_S1x64_S2000x64 bitsLt_bf16_f32 p e

/-- Row p of the feature tile at point t is row 2000·t + p of the feature array. -/
theorem rows_block (c : Dev nD) (t : Fin cfg6.N) (p : Fin 2000) (q : Fin 128) (r : Fin 50000) (hr : r.val = t.val * 2000 + p.val) :
    iblk6 V c 0 t (ix2 p q) = V c main_v75 (ix2 r q) := by
  obtain ⟨e0, e1, -⟩ := index_maps t
  show V c main_v75 (((cfg6.win 0).blk t).view.emb (ix2 p q)) = V c main_v75 (ix2 r q)
  refine congrArg _ (funext fun a => Fin.ext ?_)
  match a with
  | ⟨0, _⟩ => show win6_0.index t (0 : Fin 2) * 2000 + 1 * p.val = r.val; omega
  | ⟨1, _⟩ => show win6_0.index t (1 : Fin 2) * 128 + 1 * q.val = q.val; omega

/-- The first weight window's block is the whole matrix at every point. -/
theorem weights1_block (c : Dev nD) (t : Fin cfg6.N) (q : Fin 128) (e : Fin 128) :
    iblk6 V c 1 t (ix2 q e) = V c main_arg8 (ix2 q e) := by
  obtain ⟨-, -, e2, e3, -⟩ := index_maps t
  show V c main_arg8 (((cfg6.win 1).blk t).view.emb (ix2 q e)) = V c main_arg8 (ix2 q e)
  refine congrArg _ (funext fun a => Fin.ext ?_)
  match a with
  | ⟨0, _⟩ => show win6_1.index t (0 : Fin 2) * 128 + 1 * q.val = q.val; omega
  | ⟨1, _⟩ => show win6_1.index t (1 : Fin 2) * 128 + 1 * e.val = e.val; omega

/-- The first bias window's block is the whole bias row at every point. -/
theorem bias1_block (c : Dev nD) (t : Fin cfg6.N) (e : Fin 128) :
    iblk6 V c 2 t (ix2 (0 : Fin 1) e) = V c main_v76 (ix2 (0 : Fin 1) e) := by
  obtain ⟨-, -, -, -, e4, e5, -⟩ := index_maps t
  show V c main_v76 (((cfg6.win 2).blk t).view.emb (ix2 (0 : Fin 1) e)) = V c main_v76 (ix2 (0 : Fin 1) e)
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * e.val = e.val; omega

/-- The second weight window's block is the whole matrix at every point. -/
theorem weights2_block (c : Dev nD) (t : Fin cfg6.N) (q : Fin 128) (e : Fin 64) :
    iblk6 V c 3 t (ix2 q e) = V c main_arg10 (ix2 q e) := by
  obtain ⟨-, -, -, -, -, -, e6, e7, -⟩ := index_maps t
  show V c main_arg10 (((cfg6.win 3).blk t).view.emb (ix2 q e)) = V c main_arg10 (ix2 q e)
  refine congrArg _ (funext fun a => Fin.ext ?_)
  match a with
  | ⟨0, _⟩ => show win6_3.index t (0 : Fin 2) * 128 + 1 * q.val = q.val; omega
  | ⟨1, _⟩ => show win6_3.index t (1 : Fin 2) * 64 + 1 * e.val = e.val; omega

/-- The second bias window's block is the whole bias row at every point. -/
theorem bias2_block (c : Dev nD) (t : Fin cfg6.N) (e : Fin 64) :
    iblk6 V c 4 t (ix2 (0 : Fin 1) e) = V c main_v77 (ix2 (0 : Fin 1) e) := by
  obtain ⟨-, -, -, -, -, -, -, -, e8, e9, -⟩ := index_maps t
  show V c main_v77 (((cfg6.win 4).blk t).view.emb (ix2 (0 : Fin 1) e)) = V c main_v77 (ix2 (0 : Fin 1) e)
  refine congrArg _ (funext fun a => Fin.ext ?_)
  match a with
  | ⟨0, _⟩ => show win6_4.index t (0 : Fin 2) * 1 + 1 * 0 = 0; omega
  | ⟨1, _⟩ => show win6_4.index t (1 : Fin 2) * 64 + 1 * e.val = e.val; omega

/-- Entry (p, e) of the output tile at point t sits at row 2000·t + p, column e of the result array. -/
theorem out_block (t : Fin cfg6.N) (p : Fin 2000) (e : Fin 64) (r : Fin 50000) (hr : r.val = t.val * 2000 + p.val) :
    ((cfg6.win 5).blk t).view.emb (ix2 p e) = ix2 r e := by
  obtain ⟨-, -, -, -, -, -, -, -, -, -, e10, e11⟩ := index_maps t
  refine funext fun a => Fin.ext ?_
  match a with
  | ⟨0, _⟩ => show win6_5.index t (0 : Fin 2) * 2000 + 1 * p.val = r.val; omega
  | ⟨1, _⟩ => show win6_5.index t (1 : Fin 2) * 64 + 1 * e.val = e.val; omega

/-- What point t writes back is tile t of the head over all rows. -/
theorem flushed (c : Dev nD) (t : Fin cfg6.N) :
    (dat6 V c).flushed 5 t = ((cfg6.win 5).blk t).view.read (Elt Ideal)
      (head (V c main_v75) (V c main_arg8) (V c main_v76) (V c main_arg10) (V c main_v77)) := by
  show (cfg6.win 5).cut (grid6.coords t) ((dat6 V c).after 5 t) = _
  rw [after6_5]
  unfold out6_5
  rw [View.canon_unit_zero zero_offsets]
  simp only [View.ld_unit_zero (S := S2000x128) zero_offsets, View.ld_unit_zero (S := S128x128) zero_offsets,
    View.ld_unit_zero (S := S1x128) zero_offsets, View.ld_unit_zero (S := S128x64) zero_offsets,
    View.ld_unit_zero (S := S1x64) zero_offsets]
  refine funext fun (j : S2000x64.Idx) => ?_
  obtain ⟨p, e, rfl⟩ : ∃ (p : Fin 2000) (e : Fin 64), j = ix2 p e := ⟨j 0, j 1, eq_ix2 j⟩
  have ht := point_lt t
  have hp := p.isLt
  let r : Fin 50000 := ⟨t.val * 2000 + p.val, by omega⟩
  show k6_pay1 (iblk6 V c 0 t) (iblk6 V c 1 t) (iblk6 V c 2 t) (iblk6 V c 3 t) (iblk6 V c 4 t) (ix2 p e)
    = head (V c main_v75) (V c main_arg8) (V c main_v76) (V c main_arg10) (V c main_v77) (((cfg6.win 5).blk t).view.emb (ix2 p e))
  rw [payload_at, out_block t p e r rfl]
  refine Eq.trans ?_ (host_head (DotDims.plain 50000 128 128) rfl (DotDims.plain 50000 128 64) rfl
    (V c main_v75) (V c main_arg8) (V c main_v76) (V c main_arg10) (V c main_v77) _ _ r e).symm
  unfold headAt prodAt
  beta_reduce
  rw [bias2_block V c t e]
  refine congrArg (· + _) (Finset.sum_congr rfl fun k _ => ?_)
  rw [bias1_block V c t k, weights2_block V c t k e]
  refine congrArg (fun z => (z + _) * _) (Finset.sum_congr rfl fun q _ => ?_)
  rw [rows_block V c t p q r rfl, weights1_block V c t q k]

/-- Every row of the result array lies in some point's tile: row i in tile i / 2000. -/
theorem covered (i : S50000x64.Idx) :
    ∃ t : Fin cfg6.N, (cfg6.win 5).flush t = true ∧ i ∈ ((cfg6.win 5).blk t).view.set := by
  have h0 : (i 0).val < 50000 := (i 0).isLt
  have h1 : (i 1).val < 64 := (i 1).isLt
  have hN : cfg6.N = 25 := N_6
  let t : Fin cfg6.N := ⟨(i 0).val / 2000, by omega⟩
  obtain ⟨-, -, -, -, -, -, -, -, -, -, e10, e11⟩ := index_maps t
  have ht : t.val = (i 0).val / 2000 := rfl
  refine ⟨t, flush6_5 t, ?_⟩
  show i ∈ ((View.whole main_v78).slice (win6_5.rect t)).set
  rw [View.set_slice_whole, Rect.mem_set_unit]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 64 ≤ (i 1).val ∧ (i 1).val < win6_5.index t (1 : Fin 2) * 64 + 64; omega

/-- After the region the result array holds the head of the five arrays as the region found them. -/
theorem final (c : Dev nD) :
    (dat6 V c).arrAt 5 cfg6.N = head (V c main_v75) (V c main_arg8) (V c main_v76) (V c main_arg10) (V c main_v77) :=
  (dat6 V c).arrAt_eq_of_cover 5 (head (V c main_v75) (V c main_arg8) (V c main_v76) (V c main_arg10) (V c main_v77))
    (fun t _ => flushed V c t) covered

end Cert.KernelIdeal.Region6

end
-- ==== Proof.Walk3.lean ====
/-
  The idealized kernel's buffers at segment boundaries 9 to 12 — the third layer's gather–scale–scatter stretch and
  combining region, the two bias rows of the head, and the head region — each as the reference's own stage of the
  launch arguments. The last one is the result array. The head's four parameter arrays are never written by any
  segment, so their contents at the late boundaries are read back from the last boundary, where they are the launch
  contents.
-/
import proofs.«147116_j32804960207401_1_alg».proof.Proof.Walk2
import proofs.«147116_j32804960207401_1_alg».proof.Proof.Region5
import proofs.«147116_j32804960207401_1_alg».proof.Proof.Region6
import Idealize.ShloMosaic.Lib.StableHlo.Run

set_option maxRecDepth 16384
set_option maxHeartbeats 4000000

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Boundary 9: after the third gather–scale–scatter stretch -/

/-- The neighbour aggregation of the stretch (gather the source rows, scale by the edge weights, sum into the
    destination rows) is the reference's, operation for operation, of the same features and edge list. -/
theorem b9_v73 : W9 m ρ c (Proc.devRef .tc main_v73) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v73) = _
  after_results_simp
  rw [b8_v60 m ρ c, b8_v1 m ρ c, b8_v3 m ρ c, b8_v25 m ρ c]
  rfl

/-- The bias made a row by a reshape is the reference's bias made a row by a broadcast along axis 1. -/
theorem b9_v74 : W9 m ρ c (Proc.devRef .tc main_v74) = Cert.ReferenceIdeal.Read.val_main_v87 (F := Ideal) (m ((c : Thread nD τ).loc main_arg7)) := by
  have e : W9 m ρ c (Proc.devRef .tc main_v74) = shapeCast S1x128 (W8 m ρ c (Proc.devRef .tc main_arg7)) shapeCasts_S128_S1x128 := by
    show StableHlo.after hostOps5 (W8 m ρ c) (Proc.devRef .tc main_v74) = _
    after_results_simp <;> rfl
  rw [e, b8_arg7 m ρ c]
  exact Cert.GraphNet.row_reshape_eq_broadcast _ _ _

theorem b9_v60 : W9 m ρ c (Proc.devRef .tc main_v60) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (show StableHlo.after hostOps5 (W8 m ρ c) (Proc.devRef .tc main_v60) = W8 m ρ c (Proc.devRef .tc main_v60) from by after_results_simp <;> rfl).trans (b8_v60 m ρ c)

theorem b9_v27 : W9 m ρ c (Proc.devRef .tc main_v27) = Cert.ReferenceIdeal.Read.val_main_v27 (F := Ideal) (m ((c : Thread nD τ).loc main_arg1)) :=
  (show StableHlo.after hostOps5 (W8 m ρ c) (Proc.devRef .tc main_v27) = W8 m ρ c (Proc.devRef .tc main_v27) from by after_results_simp <;> rfl).trans (b8_v27 m ρ c)

/-! ## Boundary 10: after the third combining region -/

/-- After region 5 the layer's output is the reference's combining step and rectifier of the same four arrays. -/
theorem b10_v75 : W10 m ρ c (Proc.devRef .tc main_v75) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ((Region5.final (V9 m ρ) c).trans ?_)
  show Region5.combined (W9 m ρ c (Proc.devRef .tc main_v60)) (W9 m ρ c (Proc.devRef .tc main_v73)) (W9 m ρ c (Proc.devRef .tc main_v27)) (W9 m ρ c (Proc.devRef .tc main_v74)) = _
  rw [b9_v60 m ρ c, b9_v73 m ρ c, b9_v27 m ρ c, b9_v74 m ρ c]
  rfl

/-- No later segment writes this bias vector: its contents here are those at the last boundary, the launch contents. -/
theorem b10_arg9 : W10 m ρ c (Proc.devRef .tc main_arg9) = (m ((c : Thread nD τ).loc main_arg9)) :=
  ((W12_of_ne m ρ c main_arg9 (by decide)).trans
    (show StableHlo.after hostOps6 (W10 m ρ c) (Proc.devRef .tc main_arg9) = W10 m ρ c (Proc.devRef .tc main_arg9) from by after_results_simp <;> rfl)).symm.trans
    (W12_main_arg9 m ρ c)

/-- No later segment writes this bias vector: its contents here are those at the last boundary, the launch contents. -/
theorem b10_arg11 : W10 m ρ c (Proc.devRef .tc main_arg11) = (m ((c : Thread nD τ).loc main_arg11)) :=
  ((W12_of_ne m ρ c main_arg11 (by decide)).trans
    (show StableHlo.after hostOps6 (W10 m ρ c) (Proc.devRef .tc main_arg11) = W10 m ρ c (Proc.devRef .tc main_arg11) from by after_results_simp <;> rfl)).symm.trans
    (W12_main_arg11 m ρ c)

/-! ## Boundary 11: after the two bias rows of the head are made -/

/-- The bias made a row by a reshape is the reference's bias made a row by a broadcast along axis 1. -/
theorem b11_v76 : W11 m ρ c (Proc.devRef .tc main_v76) = Cert.ReferenceIdeal.Read.val_main_v92 (F := Ideal) (m ((c : Thread nD τ).loc main_arg9)) := by
  have e : W11 m ρ c (Proc.devRef .tc main_v76) = shapeCast S1x128 (W10 m ρ c (Proc.devRef .tc main_arg9)) shapeCasts_S128_S1x128 := by
    show StableHlo.after hostOps6 (W10 m ρ c) (Proc.devRef .tc main_v76) = _
    after_results_simp <;> rfl
  rw [e, b10_arg9 m ρ c]
  exact Cert.GraphNet.row_reshape_eq_broadcast _ _ _

/-- The bias made a row by a reshape is the reference's bias made a row by a broadcast along axis 1. -/
theorem b11_v77 : W11 m ρ c (Proc.devRef .tc main_v77) = Cert.ReferenceIdeal.Read.val_main_v96 (F := Ideal) (m ((c : Thread nD τ).loc main_arg11)) := by
  have e : W11 m ρ c (Proc.devRef .tc main_v77) = shapeCast S1x64 (W10 m ρ c (Proc.devRef .tc main_arg11)) shapeCasts_S64_S1x64 := by
    show StableHlo.after hostOps6 (W10 m ρ c) (Proc.devRef .tc main_v77) = _
    after_results_simp <;> rfl
  rw [e, b10_arg11 m ρ c]
  exact Cert.GraphNet.row_reshape_eq_broadcast _ _ _

theorem b11_v75 : W11 m ρ c (Proc.devRef .tc main_v75) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (show StableHlo.after hostOps6 (W10 m ρ c) (Proc.devRef .tc main_v75) = W10 m ρ c (Proc.devRef .tc main_v75) from by after_results_simp <;> rfl).trans (b10_v75 m ρ c)

/-- The head region only reads this weight matrix: its contents here are those at the last boundary, the launch contents. -/
theorem b11_arg8 : W11 m ρ c (Proc.devRef .tc main_arg8) = (m ((c : Thread nD τ).loc main_arg8)) :=
  ((W12_arr m ρ c 1).trans (((dat6 (V11 m ρ) c).arrAt_in 1 rfl _).trans (A_eq6 (V11 m ρ) c 1))).symm.trans (W12_main_arg8 m ρ c)

/-- The head region only reads this weight matrix: its contents here are those at the last boundary, the launch contents. -/
theorem b11_arg10 : W11 m ρ c (Proc.devRef .tc main_arg10) = (m ((c : Thread nD τ).loc main_arg10)) :=
  ((W12_arr m ρ c 3).trans (((dat6 (V11 m ρ) c).arrAt_in 3 rfl _).trans (A_eq6 (V11 m ρ) c 3))).symm.trans (W12_main_arg10 m ρ c)

/-! ## Boundary 12: after the head region — the result -/

/-- The result array is the reference's result stage of the twelve launch arguments. -/
theorem b12_v78 : W12 m ρ c (Proc.devRef .tc main_v78) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 5).trans ((Region6.final (V11 m ρ) c).trans ?_)
  show Region6.head (W11 m ρ c (Proc.devRef .tc main_v75)) (W11 m ρ c (Proc.devRef .tc main_arg8)) (W11 m ρ c (Proc.devRef .tc main_v76)) (W11 m ρ c (Proc.devRef .tc main_arg10)) (W11 m ρ c (Proc.devRef .tc main_v77)) = _
  rw [b11_v75 m ρ c, b11_arg8 m ρ c, b11_v76 m ρ c, b11_arg10 m ρ c, b11_v77 m ρ c]
  rfl

end Cert.KernelIdeal.Walk

end
-- ==== Proof.lean ====
/-
  A three-layer graph convolution network with a two-layer head, over 50000 nodes and 800000 edges: the tiled program
  against the plain one, on the extended reals.

  Both programs first compute, from the edge list alone and by the same operations, each node's degree-based weights:
  dis = (1 + in-degree)^(-1/2), the per-edge weight dis[src]·dis[dst] and the self-loop weight dis·dis. A layer then
  maps features H to

      max( agg + (H·W)·selfloop + b, 0 ),   agg = sum over the edges into a node of (H·W)[src] · edgeweight,

  and the head maps the last features to (H·W1 + b1)·W2 + b2. The plain program does each matrix product, each
  combining step and the head on all 50000 rows at once; the tiled program does them 2000 rows at a time, with the
  matrix operands rounded to a shorter float format on the way into each product, which on the extended reals is no
  change. The gather of source rows and the scatter-sum into destination rows are the same host operations in both.

  Since entry (p, e) of each tiled step reads only row p of its row-indexed operands, every tile written back is the
  matching tile of the whole-array step, and the 25 tiles cover the rows (the seven region modules). Following the
  buffers from the launch through the twelve segments, each intermediate array of the tiled program is the plain
  program's own intermediate of the same arguments (the three walk modules); the last of them is the result. No
  algebraic law is needed beyond that: the two programs apply the same operations in the same order, so the
  precondition is never opened.
-/
import proofs.«147116_j32804960207401_1_alg».proof.Defs
import proofs.«147116_j32804960207401_1_alg».proof.Proof.Gen.Kernel
import proofs.«147116_j32804960207401_1_alg».proof.Proof.Gen.Kernel.Frame
import proofs.«147116_j32804960207401_1_alg».proof.Proof.Gen.KernelIdeal
import proofs.«147116_j32804960207401_1_alg».proof.Proof.Gen.KernelIdeal.Frame
import proofs.«147116_j32804960207401_1_alg».proof.Proof.Gen.ReferenceIdeal
import proofs.«147116_j32804960207401_1_alg».proof.Proof.Gen.ReferenceIdeal.Run
import proofs.«147116_j32804960207401_1_alg».proof.Proof.Gen.ReferenceIdeal.Read
import proofs.«147116_j32804960207401_1_alg».proof.Proof.Gen.Pre_finite_inputs
import proofs.«147116_j32804960207401_1_alg».proof.Proof.KernelRun
import proofs.«147116_j32804960207401_1_alg».proof.Proof.Walk3
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs, and its arguments end as launched. -/
theorem frame_kernel : Cert.frame_Kernel := fun m ρ _ => Cert.Kernel.Gen.frame m ρ

/-- The idealized kernel runs, and its arguments end as launched. -/
theorem frame_kernel_ideal : Cert.frame_KernelIdeal := fun m ρ _ => Cert.KernelIdeal.Gen.frame m ρ

/-- The idealized reference runs, and its arguments end as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealizing pass rewrote nothing, so there is nothing to preserve. -/
theorem preserves : Cert.preserves_Kernel_KernelIdeal := trivial

/-- From memories that agree on the twelve arguments both idealized programs run, and both end with the result array
    at the plain program's result stage of those arguments: the tiled program because its last boundary holds exactly
    that, the plain program by its own run. -/
theorem algebraic : Cert.algebraic_KernelIdeal_ReferenceIdeal := by
  intro m ρ m' ρ' _ hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Walk.b12_v78 m ρ c), (h c).2⟩)
      (Cert.KernelIdeal.ValueRun.run_final (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11⟩ := hagree c
    rw [Cert.ReferenceIdeal.Read.val_main_v98_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
